-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3136 : Shape := ⟨3, ![8, 1024, 3136]⟩
abbrev S_ : Shape := ⟨0, ![]⟩

class Facts : Prop where
  bcast_S_S8x1024x3136 : S_.BroadcastsInDim S8x1024x3136 (![] : Fin 0 → Fin S8x1024x3136.rank)
  reducesTo_S8x1024x3136_S_d0_1_2 : S8x1024x3136.ReducesTo [0, 1, 2] S_
  h_S_ : 0 < S_.numel

variable [Facts]

def fn {F : FTy → Type} [FloatOps F] (main_arg0 : FVec F S8x1024x3136 .f32) (main_arg1 : FVec F S8x1024x3136 .f32) : IVec S_ 1 :=
  let main_v0 : FVec F S8x1024x3136 .f32 := Host.absf main_arg0
  let main_cst : FVec F S_ .f32 := constant S_ .f32 0x7F800000#32
  let main_v1 : FVec F S8x1024x3136 .f32 := broadcastInDim S8x1024x3136 ![] bcast_S_S8x1024x3136 main_cst
  let main_v2 : IVec S8x1024x3136 1 := cmpf .olt main_v0 main_v1
  let main_c : IVec S_ 1 := constantI S_ 1 1#1
  let main_v3 : IVec S_ 1 := (fun x v => Host.reduce IntOp.andi x v reducesTo_S8x1024x3136_S_d0_1_2 h_S_) main_v2 main_c
  let main_v4 : FVec F S8x1024x3136 .f32 := Host.absf main_arg1
  let main_cst_0 : FVec F S_ .f32 := constant S_ .f32 0x7F800000#32
  let main_v5 : FVec F S8x1024x3136 .f32 := broadcastInDim S8x1024x3136 ![] bcast_S_S8x1024x3136 main_cst_0
  let main_v6 : IVec S8x1024x3136 1 := cmpf .olt main_v4 main_v5
  let main_c_1 : IVec S_ 1 := constantI S_ 1 1#1
  let main_v7 : IVec S_ 1 := (fun x v => Host.reduce IntOp.andi x v reducesTo_S8x1024x3136_S_d0_1_2 h_S_) main_v6 main_c_1
  let main_v8 : IVec S_ 1 := andi main_v3 main_v7
  main_v8
-- ==== Kernel.lean ====
abbrev S8x1024x3136 : Shape := ⟨3, ![8, 1024, 3136]⟩
abbrev S8x1x128 : Shape := ⟨3, ![8, 1, 128]⟩
abbrev S1x1024x3136 : Shape := ⟨3, ![1, 1024, 3136]⟩
abbrev S1x256x3136 : Shape := ⟨3, ![1, 256, 3136]⟩
abbrev S1x1x128 : Shape := ⟨3, ![1, 1, 128]⟩
abbrev S1024x3136 : Shape := ⟨2, ![1024, 3136]⟩
abbrev S256x3136 : Shape := ⟨2, ![256, 3136]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 19
  | .vmem => 11
  | .smem => 0
  | _ => 0

abbrev bufTy : (tb : Table) → Fin (tcTables nBuf tb) → BufTy
  | .hbm, ⟨0, _⟩ => ⟨S8x1024x3136, .f32⟩
  | .hbm, ⟨1, _⟩ => ⟨S8x1024x3136, .f32⟩
  | .hbm, ⟨2, _⟩ => ⟨S8x1x128, .f32⟩
  | .hbm, ⟨3, _⟩ => ⟨S8x1x128, .f32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S8x1x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x1024x3136, .f32⟩
  | .local _ .vmem, ⟨1, _⟩ => ⟨S1x256x3136, .f32⟩
  | .local _ .vmem, ⟨2, _⟩ => ⟨S1x256x3136, .f32⟩
  | .local _ .vmem, ⟨3, _⟩ => ⟨S1x256x3136, .f32⟩
  | .local _ .vmem, ⟨4, _⟩ => ⟨S1x256x3136, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | _, _ => ⟨S8x1024x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_32 : BitVec 32 := 0#32
  let v66 : BitVec 1 := Scalar.cmpi .ne v65 c0_i32_32
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x3136 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x1024x3136_S1x1024x3136_0_0_0 : ∀ a, (![0, 0, 0] : Fin 3 → Nat) a + S1x1024x3136.size a ≤ S1x1024x3136.size a
  h_S1x1024x3136 : 0 < S1x1024x3136.numel
  shapeCasts_S1x1024x3136_S1024x3136 : S1x1024x3136.ShapeCasts S1024x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S1024x3136_S1024 : S1024x3136.Reduces [1] S1024
  shapeCasts_S1024_S1024x1 : S1024.ShapeCasts S1024x1
  broadcasts_S1024x1_S1024x3136 : S1024x1.Broadcasts S1024x3136
  bitsLt_bf16_f32 : FTy.bits .bf16 < FTy.bits .f32
  reduces_S256x3136_S256 : S256x3136.Reduces [1] S256
  shapeCasts_S256_S256x1 : S256.ShapeCasts S256x1
  broadcasts_S256x1_S256x3136 : S256x1.Broadcasts S256x3136
  reduces_S256x1024_S256 : S256x1024.Reduces [1] S256
  reduces_S256x1_S1 : S256x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  dot_S256x3136_S1024x3136_S256x1024_1_1_0_0_n_n_wf : DotDims.WF S256x3136 S1024x3136 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x3136.size a ≤ S8x1024x3136.size a
  hwx0_0 : ∀ i : grid0.Coords, EltTy.bits .f32 = 32 ∨ (Rect.block (s := S8x1024x3136) S1x1024x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3136.size a ≤ S8x1024x3136.size a
  hwx0_1 : ∀ i : grid0.Coords, EltTy.bits .f32 = 32 ∨ (Rect.block (s := S8x1024x3136) S1x256x3136.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x3136.size a ≤ S8x1024x3136.size a
  hwx0_2 : ∀ i : grid0.Coords, EltTy.bits .f32 = 32 ∨ (Rect.block (s := S8x1024x3136) S1x256x3136.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S256x3136_S1024x3136_S256x1024_1_1_0_0_n_n : DotDims S256x3136 S1024x3136 S256x1024 where
  lhsContracting := [1]
  rhsContracting := [1]
  lhsNonContracting := [0]
  rhsNonContracting := [0]
  lhsBatch := []
  rhsBatch := []
  wf := dot_S256x3136_S1024x3136_S256x1024_1_1_0_0_n_n_wf

abbrev win0_0 : Pipeline.Window sig grid0 :=
  Pipeline.Window.ofSpec (Memref.whole main_arg0) S1x1024x3136.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x3136.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x3136.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x3136 : Shape := ⟨3, ![8, 1024, 3136]⟩
abbrev S_ : Shape := ⟨0, ![]⟩
abbrev S8x1024 : Shape := ⟨2, ![8, 1024]⟩
abbrev S8x1024x1 : Shape := ⟨3, ![8, 1024, 1]⟩
abbrev S8x1024x1024 : Shape := ⟨3, ![8, 1024, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x1024x3136, .f32⟩
  | .hbm, ⟨1, _⟩ => ⟨S8x1024x3136, .f32⟩
  | .hbm, ⟨2, _⟩ => ⟨S8x1024x3136, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x1024x1, .f32⟩
  | .hbm, ⟨7, _⟩ => ⟨S_, .f32⟩
  | .hbm, ⟨8, _⟩ => ⟨S8x1024x1, .f32⟩
  | .hbm, ⟨9, _⟩ => ⟨S8x1024x1, .f32⟩
  | .hbm, ⟨10, _⟩ => ⟨S8x1024x3136, .f32⟩
  | .hbm, ⟨11, _⟩ => ⟨S8x1024x3136, .f32⟩
  | .hbm, ⟨12, _⟩ => ⟨S8x1024x3136, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S8x1024x3136, .f32⟩
  | .hbm, ⟨21, _⟩ => ⟨S8x1024x3136, .f32⟩
  | .hbm, ⟨22, _⟩ => ⟨S8x1024x1024, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x1024x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S8x1024x3136_S8x1024_d2 : S8x1024x3136.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x3136_0_1_2 : S8x1024x1.BroadcastsInDim S8x1024x3136 (![0, 1, 2] : Fin 3 → Fin S8x1024x3136.rank)
  reducesTo_S8x1024x1024_S_d0_1_2 : S8x1024x1024.ReducesTo [0, 1, 2] S_
  dot_S8x1024x3136_S8x1024x3136_S8x1024x1024_2_2_1_1_0_0_wf : DotDims.WF S8x1024x3136 S8x1024x3136 S8x1024x1024 [2] [2] [1] [1] [0] [0]

variable [Facts₀]

def dot_S8x1024x3136_S8x1024x3136_S8x1024x1024_2_2_1_1_0_0 : DotDims S8x1024x3136 S8x1024x3136 S8x1024x1024 where
  lhsContracting := [2]
  rhsContracting := [2]
  lhsNonContracting := [1]
  rhsNonContracting := [1]
  lhsBatch := [0]
  rhsBatch := [0]
  wf := dot_S8x1024x3136_S8x1024x3136_S8x1024x1024_2_2_1_1_0_0_wf

class Facts : Prop extends Facts₀ where

variable [Facts]
-- ==== Proof.BBody.lean ====
import proofs.«157308_j65850438582860_1_alg».proof.Proof.Gen.Kernel.Launch
import proofs.«157308_j65850438582860_1_alg».proof.Proof.Gen.Kernel.Skeleton
import proofs.«157308_j65850438582860_1_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the region finds, and the three control cases

The grid is 8 batches × 4 row parts, walked in row-major order: point t is batch t / 4, part t % 4.  The body resets
its two accumulators at part 0, adds the part's sums of squares at every part, and copies the accumulators to the two
output blocks at part 3. -/

variable (m : (ℓ : Loc nD τ sig) → Buf (Elt F) ℓ)

/-- The contents of core c's buffers when the region is entered: @main starts with the region. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The reset branch's condition: the part is the first. -/
abbrev condReset (i : grid0.Coords) : Prop := (Scalar.cmpi .ne (Scalar.extui (Scalar.cmpi .eq (BitVec.ofNat 32 (i 1).val) 0#32)) 0#32) = 1#1
/-- The write-out branch's condition: the part is the last. -/
abbrev condOut (i : grid0.Coords) : Prop := k0_cond2 i = 1#1

theorem hcondReset : ∀ t : Fin cfg0.N, condReset (grid0.coords t) ↔ t.val % 4 = 0 :=
  (by decide +kernel : ∀ t : Fin grid0.N, condReset (grid0.coords t) ↔ t.val % 4 = 0)
theorem hcondOut : ∀ t : Fin cfg0.N, condOut (grid0.coords t) ↔ t.val % 4 = 3 :=
  (by decide +kernel : ∀ t : Fin grid0.N, condOut (grid0.coords t) ↔ t.val % 4 = 3)

/-- The two output windows are idle except at the last part, and written back exactly there. -/
theorem idle3 : ∀ t : Fin cfg0.N, t.val % 4 ≠ 3 → cfg0.idle 3 (grid0.coords t) = true := by decide +kernel
theorem idle4 : ∀ t : Fin cfg0.N, t.val % 4 ≠ 3 → cfg0.idle 4 (grid0.coords t) = true := by decide +kernel
theorem live3 : ∀ t : Fin cfg0.N, t.val % 4 = 3 → cfg0.idle 3 (grid0.coords t) = false := by decide +kernel
theorem live4 : ∀ t : Fin cfg0.N, t.val % 4 = 3 → cfg0.idle 4 (grid0.coords t) = false := by decide +kernel
theorem noFlush3 (t : Fin cfg0.N) (h : t.val % 4 ≠ 3) : (cfg0.win 3).flush t = false := by
  cases hf : (cfg0.win 3).flush t
  · rfl
  · exact absurd ((flush0_3 t).mp hf) h
theorem noFlush4 (t : Fin cfg0.N) (h : t.val % 4 ≠ 3) : (cfg0.win 4).flush t = false := by
  cases hf : (cfg0.win 4).flush t
  · rfl
  · exact absurd ((flush0_4 t).mp hf) h

/-- The zero offsets of every load and store of the body, as a function. -/
theorem hz3 : (![0, 0, 0] : Fin 3 → Nat) = fun _ => 0 := by
  funext a; fin_cases a <;> rfl

/-- Each window's current staging memref at point t, and the two scratch accumulators. -/
abbrev ms0 (t : Fin cfg0.N) : Memref sig .tc .vmem S1x1024x3136 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x3136 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x3136 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev sc0 : Memref sig .tc .vmem S1x1x128 .f32 := Memref.whole cc0_scratch0
abbrev sc1 : Memref sig .tc .vmem S1x1x128 .f32 := Memref.whole cc0_scratch1

/-- What one point adds: the two accumulators after the body, from the three input blocks and the accumulators before. -/
def stepS (x0 : Vec F S1x1024x3136 .f32) (x1 : Vec F S1x256x3136 .f32) (a : Vec F S1x1x128 .f32) : Vec F S1x1x128 .f32 :=
  k0_pay1 (k0_pay6 x0 x1) a
def stepT (x0 : Vec F S1x1024x3136 .f32) (x2 : Vec F S1x256x3136 .f32) (a : Vec F S1x1x128 .f32) : Vec F S1x1x128 .f32 :=
  k0_pay2 (k0_pay7 x0 x2) a

section Runs

variable (c : Dev nD) (i : grid0.Coords)
    (arg2 : Memref sig .tc .vmem S1x1024x3136 .f32) (harg2 : arg2.IsWhole) (arg3 : Memref sig .tc .vmem S1x256x3136 .f32) (harg3 : arg3.IsWhole)
    (arg4 : Memref sig .tc .vmem S1x256x3136 .f32) (harg4 : arg4.IsWhole) (arg5 : Memref sig .tc .vmem S1x1x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (x0 : Vec F S1x1024x3136 .f32) (x1 x2 : Vec F S1x256x3136 .f32) (o3 o4 a7 a8 : Vec F S1x1x128 .f32)

set_option maxHeartbeats 2000000 in
/-- A middle part: the accumulators are added to, the output blocks are left as found. -/
theorem run_mid (hc1 : ¬condReset i) (hc2 : ¬condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4
            ∗ owns (c : Thread nD τ) arg7 fullShare (stepS x0 x1 a7) ∗ owns (c : Thread nD τ) arg8 fullShare (stepT x0 x2 a8)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl

set_option maxHeartbeats 2000000 in
/-- The first part of a batch: the accumulators are zeroed, then added to; the output blocks are left as found. -/
theorem run_reset (hc1 : condReset i) (hc2 : ¬condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4
            ∗ owns (c : Thread nD τ) arg7 fullShare (stepS x0 x1 k0_pay3) ∗ owns (c : Thread nD τ) arg8 fullShare (stepT x0 x2 k0_pay4)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg2.read_unread, harg4.read_unread, View.ld_unit_zero (S := S1x1x128) hz3,
      View.ld_unit_zero (S := S1x1024x3136) hz3, View.ld_unit_zero (S := S1x256x3136) hz3]
    try rfl

set_option maxHeartbeats 2000000 in
/-- The last part of a batch: the accumulators are added to, then copied to the two output blocks. -/
theorem run_out (hc1 : ¬condReset i) (hc2 : condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare (stepS x0 x1 a7) ∗ owns (c : Thread nD τ) arg6 fullShare (stepT x0 x2 a8)
            ∗ owns (c : Thread nD τ) arg7 fullShare (stepS x0 x1 a7) ∗ owns (c : Thread nD τ) arg8 fullShare (stepT x0 x2 a8)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]
  · iexists _; isplitr; swap; · iexact H3
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  isplitl [H4]
  · iexists _; isplitr; swap; · iexact H4
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl

end Runs

/-! ## What the accumulators hold after each point, and the proof data -/

section Data

/-- The two accumulators after the body at position n: zeroed at the first part of a batch, then this part's sums
    of squares added to what the part before left. -/
def accAt (c : Dev nD) : (n : ℕ) → n < cfg0.N → Vec F S1x1x128 .f32 × Vec F S1x1x128 .f32
  | 0, hn => (stepS (iblk m c 0 ⟨0, hn⟩) (iblk m c 1 ⟨0, hn⟩) k0_pay3, stepT (iblk m c 0 ⟨0, hn⟩) (iblk m c 2 ⟨0, hn⟩) k0_pay4)
  | n + 1, hn =>
    if (n + 1) % 4 = 0 then
      (stepS (iblk m c 0 ⟨n + 1, hn⟩) (iblk m c 1 ⟨n + 1, hn⟩) k0_pay3, stepT (iblk m c 0 ⟨n + 1, hn⟩) (iblk m c 2 ⟨n + 1, hn⟩) k0_pay4)
    else
      (stepS (iblk m c 0 ⟨n + 1, hn⟩) (iblk m c 1 ⟨n + 1, hn⟩) (accAt c n (Nat.lt_of_succ_lt hn)).1,
        stepT (iblk m c 0 ⟨n + 1, hn⟩) (iblk m c 2 ⟨n + 1, hn⟩) (accAt c n (Nat.lt_of_succ_lt hn)).2)

theorem accAt_reset (c : Dev nD) (t : Fin cfg0.N) (h0 : t.val % 4 = 0) :
    accAt m c t.val t.isLt = (stepS (iblk m c 0 t) (iblk m c 1 t) k0_pay3, stepT (iblk m c 0 t) (iblk m c 2 t) k0_pay4) := by
  obtain ⟨n, hn⟩ := t
  cases n with
  | zero => exact rfl
  | succ n => exact (if_pos h0)

theorem accAt_step (c : Dev nD) (t : Fin cfg0.N) (h0 : ¬t.val % 4 = 0) :
    accAt m c t.val t.isLt = (stepS (iblk m c 0 t) (iblk m c 1 t) (accAt m c (t.val - 1) (Nat.lt_of_le_of_lt (Nat.sub_le _ _) t.isLt)).1,
      stepT (iblk m c 0 t) (iblk m c 2 t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-- The invariant before position n: before the first point both accumulators hold anything; afterwards what the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare (accAt m c n hn).1 ∗ owns (c : Thread nD τ) sc1 fullShare (accAt m c n hn).2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2) := by
  cases n with
  | zero => exact absurd rfl hz
  | succ n => rfl

/-- The scoped buffers no window stages are the two accumulators. -/
theorem scopedRest_eq (c : Dev nD) :
    (Pipeline.scopedRest spec0 c : sProp 𝕄) = iprop((∃ d, owns (c : Thread nD τ) sc0 fullShare d) ∗ (∃ d, owns (c : Thread nD τ) sc1 fullShare d)) := by
  rw [scopedRest0_eq]; simp only [sc0, sc1, owns_whole]; try rfl

/-- The proof data of the pipeline on core c: the arrays as launched; after the body at point t each input's buffer at
    its block and the two outputs' at the accumulators; the invariant the accumulators; nothing owed; the first array is
    read through two windows, which hold it at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (accAt m c t.val t.isLt).1
    | ⟨4, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (accAt m c t.val t.isLt).1 := by dsimp only [dats]
theorem after4 (c : Dev nD) (t : Fin cfg0.N) : (dats m 0 c).after 4 t = (accAt m c t.val t.isLt).2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3_live (c : Dev nD) (t : Fin cfg0.N) (h : t.val % 4 = 3) :
    (dats m 0 c).leavesExact 3 t = owns (c : Thread nD τ) (ms3 t) fullShare (accAt m c t.val t.isLt).1 := by
  unfold Dat.leavesExact; rw [live3 t h, after3]
theorem leaves4_live (c : Dev nD) (t : Fin cfg0.N) (h : t.val % 4 = 3) :
    (dats m 0 c).leavesExact 4 t = owns (c : Thread nD τ) (ms4 t) fullShare (accAt m c t.val t.isLt).2 := by
  unfold Dat.leavesExact; rw [live4 t h, after4]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the inputs' buffers hold their blocks; the part says which of the three cases runs; the
    invariant hands over the accumulators at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 4 = 0
  · have h3 : t.val % 4 ≠ 3 := by omega
    rw [Dat.leavesExact_idle (dats m 0 c) 3 t (idle3 t h3) (noFlush3 t h3), Dat.leavesExact_idle (dats m 0 c) 4 t (idle4 t h3) (noFlush4 t h3)]
    rw [accAt_reset m c t h0]; dsimp only
    by_cases hz : t.val = 0
    · rw [PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (run_reset (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4) ((hcondReset t).mpr h0) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (run_reset (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4) ((hcondReset t).mpr h0) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [PhiS_castSucc m c t, PhiS_pos m c _ _ hz]
    rw [accAt_step m c t h0]; dsimp only
    by_cases h3 : t.val % 4 = 3
    · rw [leaves3_live m c t h3, leaves4_live m c t h3, accAt_step m c t h0]; dsimp only
      iintro ⟨⟨HS0, HS1⟩, Ho, ⟨%d0, H0⟩, ⟨%d1, H1⟩, ⟨%d2, H2⟩, ⟨%d3, H3⟩, ⟨%d4, H4⟩⟩
      iapply (run_out (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4)
        (accAt m c (t.val - 1) (Nat.lt_of_le_of_lt (Nat.sub_le _ _) t.isLt)).1 (accAt m c (t.val - 1) (Nat.lt_of_le_of_lt (Nat.sub_le _ _) t.isLt)).2
        (fun h => h0 ((hcondReset t).mp h)) ((hcondOut t).mpr h3) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · rw [Dat.leavesExact_idle (dats m 0 c) 3 t (idle3 t h3) (noFlush3 t h3), Dat.leavesExact_idle (dats m 0 c) 4 t (idle4 t h3) (noFlush4 t h3)]
      iintro ⟨⟨HS0, HS1⟩, Ho, ⟨%d0, H0⟩, ⟨%d1, H1⟩, ⟨%d2, H2⟩, ⟨%d3, H3⟩, ⟨%d4, H4⟩⟩
      iapply (run_mid (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4)
        (accAt m c (t.val - 1) (Nat.lt_of_le_of_lt (Nat.sub_le _ _) t.isLt)).1 (accAt m c (t.val - 1) (Nat.lt_of_le_of_lt (Nat.sub_le _ _) t.isLt)).2
        (fun h => h0 ((hcondReset t).mp h)) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Data

end Cert.Kernel.Hand

end
-- ==== Proof.BLaunch.lean ====
import proofs.«157308_j65850438582860_1_alg».proof.Proof.BBody
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as two segments: the region, then fifteen host lines

The first argument array is read through two windows (all rows of a batch; one part of its rows).  Each window holds
the array at one half of its share while the region runs; the halves are joined again when the region ends, and
the host lines then run over every unscoped buffer held whole. -/

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- Core c's buffers at launch, as a valuation. -/
abbrev V₀ (c : Dev nD) : Valuation τ sig (Elt F) := fun b => m ((c : Dev nD), b)

open Classical in
/-- Core c's buffers when the region has ended: the two result arrays at what the write-backs left, every other
    buffer as launched. -/
def W1 (c : Dev nD) : Valuation τ sig (Elt F) :=
  Function.update (Function.update (V₀ m c) (Proc.devRef .tc main_v0_0) ((dats m 0 c).arrAt 3 cfg0.N))
    (Proc.devRef .tc main_v0_1) ((dats m 0 c).arrAt 4 cfg0.N)

theorem W1_v0_1 (c : Dev nD) : W1 m c (Proc.devRef .tc main_v0_1) = (dats m 0 c).arrAt 4 cfg0.N := by
  unfold W1; exact Function.update_self ..
theorem W1_v0_0 (c : Dev nD) : W1 m c (Proc.devRef .tc main_v0_0) = (dats m 0 c).arrAt 3 cfg0.N := by
  unfold W1
  rw [Function.update_of_ne (StableHlo.devRef_ne_of_ne (by decide))]
  exact Function.update_self ..
theorem W1_of_ne (c : Dev nD) (b : Ref sig .tc) (h0 : b ≠ main_v0_0) (h1 : b ≠ main_v0_1) :
    W1 m c (Proc.devRef .tc b) = m ((c : Thread nD τ).loc b) := by
  unfold W1
  rw [Function.update_of_ne (StableHlo.devRef_ne_of_ne h1), Function.update_of_ne (StableHlo.devRef_ne_of_ne h0)]

/-- The buffers behind the five windows, listed: four, since two windows read the first argument. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0_0) ↦{fullShare} Vv main_v0_0) ∗ (((c : Thread nD τ).loc main_v0_1) ↦{fullShare} Vv main_v0_1)) := by
  unfold Pipeline.arrBufs
  exact bigSep_eq_bigSepL_of_eq [main_arg0, main_arg1, main_v0_0, main_v0_1] (by decide) (by decide) _

/-- The pipeline's arrays, window by window, at the shares the proof data names. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2)
          ∗ (((c : Thread nD τ).loc main_v0_0) ↦{fullShare} G 3) ∗ (((c : Thread nD τ).loc main_v0_1) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

theorem owes_in (c : Dev nD) (t : Fin (cfg0.N + 1)) : R (F := F) c ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owes_out (c : Dev nD) (t : Fin (cfg0.N + 1)) : ((dats m 0 c).owesAt () t : sProp 𝕄) ⊢ R (F := F) c := by
  unfold Pipeline.Dat.owesAt Pipeline.owesWithin
  iintro ⟨%W, -, HO⟩; iexists W; iexact HO

/-- The unscoped buffers that are no window's array hold after the region what they held at launch. -/
theorem rest_eq (c : Dev nD) :
    (Pipeline.unscopedRest (Ix := Unit) (Name := ℕ) (U := UR sig nD τ) (Lvl := ℕ) spec0 c (V m c) : sProp 𝕄)
      = Pipeline.unscopedRest spec0 c (fun b => W1 m c (Proc.devRef .tc b)) := by
  unfold Pipeline.unscopedRest
  refine bigSep_congr fun b hb => ?_
  have hb' := (Finset.mem_sdiff.mp hb).2
  have h0 : b ≠ main_v0_0 := fun e => hb' (Finset.mem_image.mpr ⟨3, Finset.mem_univ _, e ▸ rfl⟩)
  have h1 : b ≠ main_v0_1 := fun e => hb' (Finset.mem_image.mpr ⟨4, Finset.mem_univ _, e ▸ rfl⟩)
  dsimp only
  rw [W1_of_ne m c b h0 h1]

-- an entailment of the launch library stated over the pinned configuration unifies only when unification may
-- unfold plain definitions in a metavariable's type
set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (W1 m c) ∗ R c)
  X _ := iprop(emp)
  Y _ := iprop(emp)
  Z c := Pipeline.unscopedRest spec0 c (V m c)
  hentry c := by
    rw [Pipeline.unscopedBufs_split₀ cfgs 0 winFacts₀0.arr_unscoped c (V m c), arrBufs_eq, arrays_eq]
    iintro ⟨⟨⟨⟨Ha0, Ha1, Hv0, Hv1⟩, Hrest⟩, HO⟩, -, -⟩
    ihave Hs := (pointsTo_share (PosShare.mem_left_op_right fullShare)).1 $$ Ha0
    icases Hs with ⟨Hl, Hr⟩
    imodintro
    isplitl [Hl Hr Ha1 Hv0 Hv1]
    · isplitl [Hl]; · iexact Hl
      isplitl [Hr]; · iexact Hr
      isplitl [Ha1]; · iexact Ha1
      isplitl [Hv0]; · iexact Hv0
      iexact Hv1
    isplitr; · unfold Pipeline.prefHeld; rw [show (Finset.univ : Finset (Fin 0)) = ∅ from rfl, BI.bigSep_empty]; iempintro
    isplitl [HO]; · iapply (owes_in m c 0); iexact HO
    isplitr; · iempintro
    iexact Hrest
  hin c := by
    rw [show (dats m 0 c).Φ 0 = PhiS m c 0 (Nat.zero_le _) from rfl, PhiS_zero m c 0 _ rfl, ← scopedRest_eq]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 32 from N_0]; decide), scopedRest_eq]
    iintro ⟨H0, H1⟩
    isplitr; · iempintro
    isplitr; · iempintro
    isplitl [H0]; · iexists _; iexact H0
    iexists _; iexact H1
  hexit c := by
    rw [arrays_eq, ← Pipeline.unscopedBufs_held, Pipeline.unscopedBufs_split₀ cfgs 0 winFacts₀0.arr_unscoped c (fun b => W1 m c (Proc.devRef .tc b)),
      arrBufs_eq, ← rest_eq, W1_v0_0, W1_v0_1, W1_of_ne m c main_arg0 (by decide) (by decide), W1_of_ne m c main_arg1 (by decide) (by decide),
      (dats m 0 c).arrAt_in 0 rfl, (dats m 0 c).arrAt_in 1 rfl, (dats m 0 c).arrAt_in 2 rfl]
    iintro ⟨⟨Hl, Hr, Ha1, Hv0, Hv1⟩, HO, -, Hrest⟩
    ihave Ha0 := (pointsTo_share (PosShare.mem_left_op_right fullShare)).2 $$ [Hl Hr]
    · isplitl [Hl]; · iexact Hl
      iexact Hr
    imodintro
    isplitr [HO]
    · isplitr [Hrest]
      · isplitl [Ha0]; · iexact Ha0
        isplitl [Ha1]; · iexact Ha1
        isplitl [Hv0]; · iexact Hv0
        iexact Hv1
      · iexact Hrest
    · iapply (owes_out m c _); iexact HO

/-- THE HOST LINES after the region, over every unscoped buffer. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W1 m) R

/-- The physical post: every unscoped buffer at what the host lines leave of the region's result. -/
def QC : PUnit × MemSt nD τ sig (Elt F) → Prop := fun r =>
  ∀ c : Dev nD, ∀ b ∈ (Finset.univ.filter fun b : Ref sig .tc => ¬ b.isScoped),
    r.2.mem ((c : Thread nD τ).loc b) = StableHlo.after hostOps1 (W1 m c) (Proc.devRef .tc b)

set_option backward.isDefEq.respectTransparency.types false in
/-- At the compiled mesh, for any float values, from any memory with zero counters: every weakly fair execution of
    @main on the TensorCores terminates, and every final state has every unscoped buffer at what the host lines leave. -/
theorem run_main : θ_run defs (onTc (τ := τ) (main (F := F))) (s₀ m ρ) (QC m) :=
  Pipeline.θ_run_regions_kit (pcfgs (F := F)) adm (dats m) () cellOf_inj EP defs₀ 𝒱₀ L lv m ρ main [.region (reg0 m), .host (seg1 m)]
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c))
    (Tₙ := fun c => StableHlo.held (c : Thread nD τ) (Pipeline.ucRefs τ sig) (StableHlo.after hostOps1 (W1 m c)))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped),
      s.mem ((c : Thread nD τ).loc b) = StableHlo.after hostOps1 (W1 m c) (Proc.devRef .tc b))
    (hfin := fun c s' => by
      rw [← Pipeline.unscopedBufs_held]; unfold unscopedBufs
      iintro ⟨Hu, HSI⟩
      imodintro
      iapply (pointsTo_read_all (Finset.univ.filter fun b : Ref sig .tc => ¬ b.isScoped) (fun b => (c : Thread nD τ).loc b)
        (fun b => StableHlo.after hostOps1 (W1 m c) (Proc.devRef .tc b)) s')
      isplitl [Hu] <;> iassumption)
    (hQ := fun _ h => h)

end Cert.Kernel.Hand

end
-- ==== Proof.KBody.lean ====
import proofs.«157308_j65850438582860_1_alg».proof.Proof.Gen.KernelIdeal.Launch
import proofs.«157308_j65850438582860_1_alg».proof.Proof.Gen.KernelIdeal.Skeleton
import proofs.«157308_j65850438582860_1_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the region finds, and the three control cases

The grid is 8 batches × 4 row parts, walked in row-major order: point t is batch t / 4, part t % 4.  The body resets
its two accumulators at part 0, adds the part's sums of squares at every part, and copies the accumulators to the two
output blocks at part 3. -/

variable (m : (ℓ : Loc nD τ sig) → Buf (Elt F) ℓ)

/-- The contents of core c's buffers when the region is entered: @main starts with the region. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The reset branch's condition: the part is the first. -/
abbrev condReset (i : grid0.Coords) : Prop := (Scalar.cmpi .ne (Scalar.extui (Scalar.cmpi .eq (BitVec.ofNat 32 (i 1).val) 0#32)) 0#32) = 1#1
/-- The write-out branch's condition: the part is the last. -/
abbrev condOut (i : grid0.Coords) : Prop := k0_cond2 i = 1#1

theorem hcondReset : ∀ t : Fin cfg0.N, condReset (grid0.coords t) ↔ t.val % 4 = 0 :=
  (by decide +kernel : ∀ t : Fin grid0.N, condReset (grid0.coords t) ↔ t.val % 4 = 0)
theorem hcondOut : ∀ t : Fin cfg0.N, condOut (grid0.coords t) ↔ t.val % 4 = 3 :=
  (by decide +kernel : ∀ t : Fin grid0.N, condOut (grid0.coords t) ↔ t.val % 4 = 3)

/-- The two output windows are idle except at the last part, and written back exactly there. -/
theorem idle3 : ∀ t : Fin cfg0.N, t.val % 4 ≠ 3 → cfg0.idle 3 (grid0.coords t) = true := by decide +kernel
theorem idle4 : ∀ t : Fin cfg0.N, t.val % 4 ≠ 3 → cfg0.idle 4 (grid0.coords t) = true := by decide +kernel
theorem live3 : ∀ t : Fin cfg0.N, t.val % 4 = 3 → cfg0.idle 3 (grid0.coords t) = false := by decide +kernel
theorem live4 : ∀ t : Fin cfg0.N, t.val % 4 = 3 → cfg0.idle 4 (grid0.coords t) = false := by decide +kernel
theorem noFlush3 (t : Fin cfg0.N) (h : t.val % 4 ≠ 3) : (cfg0.win 3).flush t = false := by
  cases hf : (cfg0.win 3).flush t
  · rfl
  · exact absurd ((flush0_3 t).mp hf) h
theorem noFlush4 (t : Fin cfg0.N) (h : t.val % 4 ≠ 3) : (cfg0.win 4).flush t = false := by
  cases hf : (cfg0.win 4).flush t
  · rfl
  · exact absurd ((flush0_4 t).mp hf) h

/-- The zero offsets of every load and store of the body, as a function. -/
theorem hz3 : (![0, 0, 0] : Fin 3 → Nat) = fun _ => 0 := by
  funext a; fin_cases a <;> rfl

/-- Each window's current staging memref at point t, and the two scratch accumulators. -/
abbrev ms0 (t : Fin cfg0.N) : Memref sig .tc .vmem S1x1024x3136 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x3136 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x3136 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev sc0 : Memref sig .tc .vmem S1x1x128 .f32 := Memref.whole cc0_scratch0
abbrev sc1 : Memref sig .tc .vmem S1x1x128 .f32 := Memref.whole cc0_scratch1

/-- What one point adds: the two accumulators after the body, from the three input blocks and the accumulators before. -/
def stepS (x0 : Vec F S1x1024x3136 .f32) (x1 : Vec F S1x256x3136 .f32) (a : Vec F S1x1x128 .f32) : Vec F S1x1x128 .f32 :=
  k0_pay1 (k0_pay6 x0 x1) a
def stepT (x0 : Vec F S1x1024x3136 .f32) (x2 : Vec F S1x256x3136 .f32) (a : Vec F S1x1x128 .f32) : Vec F S1x1x128 .f32 :=
  k0_pay2 (k0_pay7 x0 x2) a

section Runs

variable (c : Dev nD) (i : grid0.Coords)
    (arg2 : Memref sig .tc .vmem S1x1024x3136 .f32) (harg2 : arg2.IsWhole) (arg3 : Memref sig .tc .vmem S1x256x3136 .f32) (harg3 : arg3.IsWhole)
    (arg4 : Memref sig .tc .vmem S1x256x3136 .f32) (harg4 : arg4.IsWhole) (arg5 : Memref sig .tc .vmem S1x1x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (x0 : Vec F S1x1024x3136 .f32) (x1 x2 : Vec F S1x256x3136 .f32) (o3 o4 a7 a8 : Vec F S1x1x128 .f32)

set_option maxHeartbeats 2000000 in
/-- A middle part: the accumulators are added to, the output blocks are left as found. -/
theorem run_mid (hc1 : ¬condReset i) (hc2 : ¬condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4
            ∗ owns (c : Thread nD τ) arg7 fullShare (stepS x0 x1 a7) ∗ owns (c : Thread nD τ) arg8 fullShare (stepT x0 x2 a8)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl

set_option maxHeartbeats 2000000 in
/-- The first part of a batch: the accumulators are zeroed, then added to; the output blocks are left as found. -/
theorem run_reset (hc1 : condReset i) (hc2 : ¬condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4
            ∗ owns (c : Thread nD τ) arg7 fullShare (stepS x0 x1 k0_pay3) ∗ owns (c : Thread nD τ) arg8 fullShare (stepT x0 x2 k0_pay4)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg2.read_unread, harg4.read_unread, View.ld_unit_zero (S := S1x1x128) hz3,
      View.ld_unit_zero (S := S1x1024x3136) hz3, View.ld_unit_zero (S := S1x256x3136) hz3]
    try rfl

set_option maxHeartbeats 2000000 in
/-- The last part of a batch: the accumulators are added to, then copied to the two output blocks. -/
theorem run_out (hc1 : ¬condReset i) (hc2 : condOut i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare (stepS x0 x1 a7) ∗ owns (c : Thread nD τ) arg6 fullShare (stepT x0 x2 a8)
            ∗ owns (c : Thread nD τ) arg7 fullShare (stepS x0 x1 a7) ∗ owns (c : Thread nD τ) arg8 fullShare (stepT x0 x2 a8)) -∗ K ⟨⟩))
      ⊢ wp frame (wpE (defs₀ (F := F)) Variants.none c none) E (cc0__nst_kernel i arg2 harg2 arg3 harg3 arg4 harg4 arg5 harg5 arg6 harg6 arg7 harg7 arg8 harg8) K := by
  simp only [cc0__nst_kernel_eq_skeleton]; unfold cc0__nst_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact hc1 | exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]
  · iexists _; isplitr; swap; · iexact H3
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  isplitl [H4]
  · iexists _; isplitr; swap; · iexact H4
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl
  isplitl [H7]
  · iexists _; isplitr; swap; · iexact H7
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg7.read_unread, harg2.read_unread, harg3.read_unread, View.ld_unit_zero (S := S1x1x128) hz3,
      View.ld_unit_zero (S := S1x1024x3136) hz3, View.ld_unit_zero (S := S1x256x3136) hz3]
    try rfl
  · iexists _; isplitr; swap; · iexact H8
    ipureintro
    sl_unfold_run_names
    rw [View.read_writes_eq_canon _ _ _ (fun y => ⟨_, List.mem_cons_self .., View.mem_set_unit_zero hz3 inb_S1x1x128_S1x1x128_0_0_0 y⟩), View.canon_cons_unit_zero hz3]
    sl_unfold_run_names
    simp only [View.readAt_eq_ld, View.readCov_unit_zero (S := S1x1x128) _ hz3, harg8.read_unread, harg2.read_unread, harg4.read_unread, View.ld_unit_zero (S := S1x1x128) hz3,
      View.ld_unit_zero (S := S1x1024x3136) hz3, View.ld_unit_zero (S := S1x256x3136) hz3]
    try rfl

end Runs

/-! ## What the accumulators hold after each point, and the proof data -/

section Data

/-- The two accumulators after the body at position n: zeroed at the first part of a batch, then this part's sums
    of squares added to what the part before left. -/
def accAt (c : Dev nD) : (n : ℕ) → n < cfg0.N → Vec F S1x1x128 .f32 × Vec F S1x1x128 .f32
  | 0, hn => (stepS (iblk m c 0 ⟨0, hn⟩) (iblk m c 1 ⟨0, hn⟩) k0_pay3, stepT (iblk m c 0 ⟨0, hn⟩) (iblk m c 2 ⟨0, hn⟩) k0_pay4)
  | n + 1, hn =>
    if (n + 1) % 4 = 0 then
      (stepS (iblk m c 0 ⟨n + 1, hn⟩) (iblk m c 1 ⟨n + 1, hn⟩) k0_pay3, stepT (iblk m c 0 ⟨n + 1, hn⟩) (iblk m c 2 ⟨n + 1, hn⟩) k0_pay4)
    else
      (stepS (iblk m c 0 ⟨n + 1, hn⟩) (iblk m c 1 ⟨n + 1, hn⟩) (accAt c n (Nat.lt_of_succ_lt hn)).1,
        stepT (iblk m c 0 ⟨n + 1, hn⟩) (iblk m c 2 ⟨n + 1, hn⟩) (accAt c n (Nat.lt_of_succ_lt hn)).2)

theorem accAt_reset (c : Dev nD) (t : Fin cfg0.N) (h0 : t.val % 4 = 0) :
    accAt m c t.val t.isLt = (stepS (iblk m c 0 t) (iblk m c 1 t) k0_pay3, stepT (iblk m c 0 t) (iblk m c 2 t) k0_pay4) := by
  obtain ⟨n, hn⟩ := t
  cases n with
  | zero => exact rfl
  | succ n => exact (if_pos h0)

theorem accAt_step (c : Dev nD) (t : Fin cfg0.N) (h0 : ¬t.val % 4 = 0) :
    accAt m c t.val t.isLt = (stepS (iblk m c 0 t) (iblk m c 1 t) (accAt m c (t.val - 1) (Nat.lt_of_le_of_lt (Nat.sub_le _ _) t.isLt)).1,
      stepT (iblk m c 0 t) (iblk m c 2 t) (accAt m c (t.val - 1) (Nat.lt_of_le_of_lt (Nat.sub_le _ _) t.isLt)).2) := by
  obtain ⟨n, hn⟩ := t
  cases n with
  | zero => exact absurd (Nat.zero_mod _) h0
  | succ n => exact (if_neg h0)

/-- The invariant before position n: before the first point both accumulators hold anything; afterwards what the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare (accAt m c n hn).1 ∗ owns (c : Thread nD τ) sc1 fullShare (accAt m c n hn).2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2) := by
  cases n with
  | zero => exact absurd rfl hz
  | succ n => rfl

/-- The scoped buffers no window stages are the two accumulators. -/
theorem scopedRest_eq (c : Dev nD) :
    (Pipeline.scopedRest spec0 c : sProp 𝕄) = iprop((∃ d, owns (c : Thread nD τ) sc0 fullShare d) ∗ (∃ d, owns (c : Thread nD τ) sc1 fullShare d)) := by
  rw [scopedRest0_eq]; simp only [sc0, sc1, owns_whole]; try rfl

/-- The proof data of the pipeline on core c: the arrays as launched; after the body at point t each input's buffer at
    its block and the two outputs' at the accumulators; the invariant the accumulators; nothing owed; the first array is
    read through two windows, which hold it at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (accAt m c t.val t.isLt).1
    | ⟨4, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (accAt m c t.val t.isLt).1 := by dsimp only [dats]
theorem after4 (c : Dev nD) (t : Fin cfg0.N) : (dats m 0 c).after 4 t = (accAt m c t.val t.isLt).2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3_live (c : Dev nD) (t : Fin cfg0.N) (h : t.val % 4 = 3) :
    (dats m 0 c).leavesExact 3 t = owns (c : Thread nD τ) (ms3 t) fullShare (accAt m c t.val t.isLt).1 := by
  unfold Dat.leavesExact; rw [live3 t h, after3]
theorem leaves4_live (c : Dev nD) (t : Fin cfg0.N) (h : t.val % 4 = 3) :
    (dats m 0 c).leavesExact 4 t = owns (c : Thread nD τ) (ms4 t) fullShare (accAt m c t.val t.isLt).2 := by
  unfold Dat.leavesExact; rw [live4 t h, after4]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the inputs' buffers hold their blocks; the part says which of the three cases runs; the
    invariant hands over the accumulators at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 32 := lt_of_lt_of_eq t.isLt (show cfg0.N = 32 from N_0)
  by_cases h0 : t.val % 4 = 0
  · have h3 : t.val % 4 ≠ 3 := by omega
    rw [Dat.leavesExact_idle (dats m 0 c) 3 t (idle3 t h3) (noFlush3 t h3), Dat.leavesExact_idle (dats m 0 c) 4 t (idle4 t h3) (noFlush4 t h3)]
    rw [accAt_reset m c t h0]; dsimp only
    by_cases hz : t.val = 0
    · rw [PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (run_reset (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4) ((hcondReset t).mpr h0) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (run_reset (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4) ((hcondReset t).mpr h0) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    rw [PhiS_castSucc m c t, PhiS_pos m c _ _ hz]
    rw [accAt_step m c t h0]; dsimp only
    by_cases h3 : t.val % 4 = 3
    · rw [leaves3_live m c t h3, leaves4_live m c t h3, accAt_step m c t h0]; dsimp only
      iintro ⟨⟨HS0, HS1⟩, Ho, ⟨%d0, H0⟩, ⟨%d1, H1⟩, ⟨%d2, H2⟩, ⟨%d3, H3⟩, ⟨%d4, H4⟩⟩
      iapply (run_out (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4)
        (accAt m c (t.val - 1) (Nat.lt_of_le_of_lt (Nat.sub_le _ _) t.isLt)).1 (accAt m c (t.val - 1) (Nat.lt_of_le_of_lt (Nat.sub_le _ _) t.isLt)).2
        (fun h => h0 ((hcondReset t).mp h)) ((hcondOut t).mpr h3) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · rw [Dat.leavesExact_idle (dats m 0 c) 3 t (idle3 t h3) (noFlush3 t h3), Dat.leavesExact_idle (dats m 0 c) 4 t (idle4 t h3) (noFlush4 t h3)]
      iintro ⟨⟨HS0, HS1⟩, Ho, ⟨%d0, H0⟩, ⟨%d1, H1⟩, ⟨%d2, H2⟩, ⟨%d3, H3⟩, ⟨%d4, H4⟩⟩
      iapply (run_mid (F := F) c (grid0.coords t) (ms0 t) (hs0 t) (ms1 t) (hs1 t) (ms2 t) (hs2 t) (ms3 t) (hs3 t) (ms4 t) (hs4 t) sc0 (Memref.isWhole_whole _) sc1 (Memref.isWhole_whole _)
        (iblk m c 0 t) (iblk m c 1 t) (iblk m c 2 t) ((dats m 0 c).before 3 t d3) ((dats m 0 c).before 4 t d4)
        (accAt m c (t.val - 1) (Nat.lt_of_le_of_lt (Nat.sub_le _ _) t.isLt)).1 (accAt m c (t.val - 1) (Nat.lt_of_le_of_lt (Nat.sub_le _ _) t.isLt)).2
        (fun h => h0 ((hcondReset t).mp h)) (fun h => h3 ((hcondOut t).mp h)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Data

end Cert.KernelIdeal.Hand

end
-- ==== Proof.KLaunch.lean ====
import proofs.«157308_j65850438582860_1_alg».proof.Proof.KBody
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as two segments: the region, then fifteen host lines

The first argument array is read through two windows (all rows of a batch; one part of its rows).  Each window holds
the array at one half of its share while the region runs; the halves are joined again when the region ends, and
the host lines then run over every unscoped buffer held whole. -/

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- Core c's buffers at launch, as a valuation. -/
abbrev V₀ (c : Dev nD) : Valuation τ sig (Elt F) := fun b => m ((c : Dev nD), b)

open Classical in
/-- Core c's buffers when the region has ended: the two result arrays at what the write-backs left, every other
    buffer as launched. -/
def W1 (c : Dev nD) : Valuation τ sig (Elt F) :=
  Function.update (Function.update (V₀ m c) (Proc.devRef .tc main_v0_0) ((dats m 0 c).arrAt 3 cfg0.N))
    (Proc.devRef .tc main_v0_1) ((dats m 0 c).arrAt 4 cfg0.N)

theorem W1_v0_1 (c : Dev nD) : W1 m c (Proc.devRef .tc main_v0_1) = (dats m 0 c).arrAt 4 cfg0.N := by
  unfold W1; exact Function.update_self ..
theorem W1_v0_0 (c : Dev nD) : W1 m c (Proc.devRef .tc main_v0_0) = (dats m 0 c).arrAt 3 cfg0.N := by
  unfold W1
  rw [Function.update_of_ne (StableHlo.devRef_ne_of_ne (by decide))]
  exact Function.update_self ..
theorem W1_of_ne (c : Dev nD) (b : Ref sig .tc) (h0 : b ≠ main_v0_0) (h1 : b ≠ main_v0_1) :
    W1 m c (Proc.devRef .tc b) = m ((c : Thread nD τ).loc b) := by
  unfold W1
  rw [Function.update_of_ne (StableHlo.devRef_ne_of_ne h1), Function.update_of_ne (StableHlo.devRef_ne_of_ne h0)]

/-- The buffers behind the five windows, listed: four, since two windows read the first argument. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0_0) ↦{fullShare} Vv main_v0_0) ∗ (((c : Thread nD τ).loc main_v0_1) ↦{fullShare} Vv main_v0_1)) := by
  unfold Pipeline.arrBufs
  exact bigSep_eq_bigSepL_of_eq [main_arg0, main_arg1, main_v0_0, main_v0_1] (by decide) (by decide) _

/-- The pipeline's arrays, window by window, at the shares the proof data names. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2)
          ∗ (((c : Thread nD τ).loc main_v0_0) ↦{fullShare} G 3) ∗ (((c : Thread nD τ).loc main_v0_1) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

theorem owes_in (c : Dev nD) (t : Fin (cfg0.N + 1)) : R (F := F) c ⊢ ((dats m 0 c).owesAt () t : sProp 𝕄) := by
  unfold Pipeline.Dat.owesAt Pipeline.owesWithin
  iintro ⟨%W, HO⟩; iexists W; isplitr; · ipureintro; exact fun _ _ => Or.inl trivial
  iexact HO

theorem owes_out (c : Dev nD) (t : Fin (cfg0.N + 1)) : ((dats m 0 c).owesAt () t : sProp 𝕄) ⊢ R (F := F) c := by
  unfold Pipeline.Dat.owesAt Pipeline.owesWithin
  iintro ⟨%W, -, HO⟩; iexists W; iexact HO

/-- The unscoped buffers that are no window's array hold after the region what they held at launch. -/
theorem rest_eq (c : Dev nD) :
    (Pipeline.unscopedRest (Ix := Unit) (Name := ℕ) (U := UR sig nD τ) (Lvl := ℕ) spec0 c (V m c) : sProp 𝕄)
      = Pipeline.unscopedRest spec0 c (fun b => W1 m c (Proc.devRef .tc b)) := by
  unfold Pipeline.unscopedRest
  refine bigSep_congr fun b hb => ?_
  have hb' := (Finset.mem_sdiff.mp hb).2
  have h0 : b ≠ main_v0_0 := fun e => hb' (Finset.mem_image.mpr ⟨3, Finset.mem_univ _, e ▸ rfl⟩)
  have h1 : b ≠ main_v0_1 := fun e => hb' (Finset.mem_image.mpr ⟨4, Finset.mem_univ _, e ▸ rfl⟩)
  dsimp only
  rw [W1_of_ne m c b h0 h1]

-- an entailment of the launch library stated over the pinned configuration unifies only when unification may
-- unfold plain definitions in a metavariable's type
set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (W1 m c) ∗ R c)
  X _ := iprop(emp)
  Y _ := iprop(emp)
  Z c := Pipeline.unscopedRest spec0 c (V m c)
  hentry c := by
    rw [Pipeline.unscopedBufs_split₀ cfgs 0 winFacts₀0.arr_unscoped c (V m c), arrBufs_eq, arrays_eq]
    iintro ⟨⟨⟨⟨Ha0, Ha1, Hv0, Hv1⟩, Hrest⟩, HO⟩, -, -⟩
    ihave Hs := (pointsTo_share (PosShare.mem_left_op_right fullShare)).1 $$ Ha0
    icases Hs with ⟨Hl, Hr⟩
    imodintro
    isplitl [Hl Hr Ha1 Hv0 Hv1]
    · isplitl [Hl]; · iexact Hl
      isplitl [Hr]; · iexact Hr
      isplitl [Ha1]; · iexact Ha1
      isplitl [Hv0]; · iexact Hv0
      iexact Hv1
    isplitr; · unfold Pipeline.prefHeld; rw [show (Finset.univ : Finset (Fin 0)) = ∅ from rfl, BI.bigSep_empty]; iempintro
    isplitl [HO]; · iapply (owes_in m c 0); iexact HO
    isplitr; · iempintro
    iexact Hrest
  hin c := by
    rw [show (dats m 0 c).Φ 0 = PhiS m c 0 (Nat.zero_le _) from rfl, PhiS_zero m c 0 _ rfl, ← scopedRest_eq]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 32 from N_0]; decide), scopedRest_eq]
    iintro ⟨H0, H1⟩
    isplitr; · iempintro
    isplitr; · iempintro
    isplitl [H0]; · iexists _; iexact H0
    iexists _; iexact H1
  hexit c := by
    rw [arrays_eq, ← Pipeline.unscopedBufs_held, Pipeline.unscopedBufs_split₀ cfgs 0 winFacts₀0.arr_unscoped c (fun b => W1 m c (Proc.devRef .tc b)),
      arrBufs_eq, ← rest_eq, W1_v0_0, W1_v0_1, W1_of_ne m c main_arg0 (by decide) (by decide), W1_of_ne m c main_arg1 (by decide) (by decide),
      (dats m 0 c).arrAt_in 0 rfl, (dats m 0 c).arrAt_in 1 rfl, (dats m 0 c).arrAt_in 2 rfl]
    iintro ⟨⟨Hl, Hr, Ha1, Hv0, Hv1⟩, HO, -, Hrest⟩
    ihave Ha0 := (pointsTo_share (PosShare.mem_left_op_right fullShare)).2 $$ [Hl Hr]
    · isplitl [Hl]; · iexact Hl
      iexact Hr
    imodintro
    isplitr [HO]
    · isplitr [Hrest]
      · isplitl [Ha0]; · iexact Ha0
        isplitl [Ha1]; · iexact Ha1
        isplitl [Hv0]; · iexact Hv0
        iexact Hv1
      · iexact Hrest
    · iapply (owes_out m c _); iexact HO

/-- THE HOST LINES after the region, over every unscoped buffer. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W1 m) R

/-- The physical post: every unscoped buffer at what the host lines leave of the region's result. -/
def QC : PUnit × MemSt nD τ sig (Elt F) → Prop := fun r =>
  ∀ c : Dev nD, ∀ b ∈ (Finset.univ.filter fun b : Ref sig .tc => ¬ b.isScoped),
    r.2.mem ((c : Thread nD τ).loc b) = StableHlo.after hostOps1 (W1 m c) (Proc.devRef .tc b)

set_option backward.isDefEq.respectTransparency.types false in
/-- At the compiled mesh, for any float values, from any memory with zero counters: every weakly fair execution of
    @main on the TensorCores terminates, and every final state has every unscoped buffer at what the host lines leave. -/
theorem run_main : θ_run defs (onTc (τ := τ) (main (F := F))) (s₀ m ρ) (QC m) :=
  Pipeline.θ_run_regions_kit (pcfgs (F := F)) adm (dats m) () cellOf_inj EP defs₀ 𝒱₀ L lv m ρ main [.region (reg0 m), .host (seg1 m)]
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c))
    (Tₙ := fun c => StableHlo.held (c : Thread nD τ) (Pipeline.ucRefs τ sig) (StableHlo.after hostOps1 (W1 m c)))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped),
      s.mem ((c : Thread nD τ).loc b) = StableHlo.after hostOps1 (W1 m c) (Proc.devRef .tc b))
    (hfin := fun c s' => by
      rw [← Pipeline.unscopedBufs_held]; unfold unscopedBufs
      iintro ⟨Hu, HSI⟩
      imodintro
      iapply (pointsTo_read_all (Finset.univ.filter fun b : Ref sig .tc => ¬ b.isScoped) (fun b => (c : Thread nD τ).loc b)
        (fun b => StableHlo.after hostOps1 (W1 m c) (Proc.devRef .tc b)) s')
      isplitl [Hu] <;> iassumption)
    (hQ := fun _ h => h)

end Cert.KernelIdeal.Hand

end
-- ==== Proof.Spec.lean ====
/-
  The quantity both programs compute, as one function of the two argument arrays, on the extended reals.

  For an array x of shape [8, 1024, 3136] every row x[b, r, ·] is divided by its Euclidean length clipped from
  below at the float 1e-12 ("unit" rows).  For two arrays x, y the inner products of the unit rows of one batch
  form a 1024 × 1024 table; "energy x y" is the sum of the squares of all 8 · 1024 · 1024 entries.  The result is
  energy s s / 2^23 − 2 · (energy t s / 2^23): 2^23 = 8 · 1024 · 1024 is the number of entries, so these are means.
  Float literals stay the words the programs carry; none of them is evaluated.
-/
import Idealize.ShloMosaic.PureOps.Ideal
import Idealize.ShloMosaic.Lib.ValueIdx

noncomputable section

open scoped BigOperators

namespace Cert.Spec

open Idealize.ShloMosaic Idealize.ShloMosaic.ValueIdx

/-- An argument array: [8, 1024, 3136] extended reals. -/
abbrev Arr : Type := (⟨3, ![8, 1024, 3136]⟩ : Shape).Idx → EReal

/-- The floor under a row's length: the float 1e-12, as the word both programs carry. -/
def floorLen : EReal := Ideal.ofBits .f32 0x2B8CBCCC#32

/-- The number of table entries, 2^23 = 8 · 1024 · 1024, as the word both programs carry. -/
def count : EReal := Ideal.ofBits .f32 0x4B000000#32

/-- The float 2, as the word both programs carry. -/
def two : EReal := Ideal.ofBits .f32 0x40000000#32

/-- The sum of the squares of row (b, r). -/
def sumSq (x : Arr) (b : Fin 8) (r : Fin 1024) : EReal := ∑ k : Fin 3136, x (ix3 b r k) * x (ix3 b r k)

/-- The Euclidean length of row (b, r), clipped from below. -/
def len (x : Arr) (b : Fin 8) (r : Fin 1024) : EReal := max (Ideal.sqrt (sumSq x b r)) floorLen

/-- Entry k of the unit row (b, r). -/
def unit (x : Arr) (b : Fin 8) (r : Fin 1024) (k : Fin 3136) : EReal := Ideal.div (x (ix3 b r k)) (len x b r)

/-- The inner product of unit row (b, n) of x with unit row (b, m) of y. -/
def gram (x y : Arr) (b : Fin 8) (n m : Fin 1024) : EReal := ∑ k : Fin 3136, unit x b n k * unit y b m k

/-- The sum of the squares of all inner products. -/
def energy (x y : Arr) : EReal := ∑ b : Fin 8, ∑ n : Fin 1024, ∑ m : Fin 1024, gram x y b n m * gram x y b n m

/-- The result: mean square of the s–s table minus twice the mean square of the t–s table. -/
def loss (s t : Arr) : EReal := Ideal.div (energy s s) count - two * Ideal.div (energy t s) count

/-! ## The pieces one grid point of the kernel sees -/

/-- Batch b of x as a [1, 1024, 3136] block: all 1024 rows. -/
def rowsAll (x : Arr) (b : Fin 8) : (⟨3, ![1, 1024, 3136]⟩ : Shape).Idx → EReal :=
  fun y => x (ix3 b ⟨(y 1).val, (y 1).isLt⟩ ⟨(y 2).val, (y 2).isLt⟩)

/-- Rows 256 j … 256 j + 255 of batch b of x as a [1, 256, 3136] block. -/
def rowsPart (x : Arr) (b : Fin 8) (j : Fin 4) : (⟨3, ![1, 256, 3136]⟩ : Shape).Idx → EReal :=
  fun y => x (ix3 b ⟨256 * j.val + (y 1).val, by have h1 : (y 1).val < 256 := (y 1).isLt; have h2 := j.isLt; show _ < 1024; omega⟩ ⟨(y 2).val, (y 2).isLt⟩)

/-- Row 256 j + r. -/
def rowOf (j : Fin 4) (r : Fin 256) : Fin 1024 := ⟨256 * j.val + r.val, by have := j.isLt; have := r.isLt; omega⟩

/-- What the 256 rows of part j contribute to the energy of batch b. -/
def partEnergy (x y : Arr) (b : Fin 8) (j : Fin 4) : EReal :=
  ∑ r : Fin 256, ∑ m : Fin 1024, gram x y b (rowOf j r) m * gram x y b (rowOf j r) m

end Cert.Spec

end
-- ==== Proof.LibLayout.lean ====
/-
  Layout operations of small ranks read at an index given by its coordinates: the unit axis a `keepdims` sum or a
  `[:, :, None]` adds at the END or in the MIDDLE of a shape, and the broadcasts along such a unit axis.  Each is the
  general "same row-major position" (for a cast) or "zero on the operand's unit axes" (for a broadcast) fact with
  both indices written out.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.LibSums.lean ====
/-
  Lane sums at the ideal values, read at an index given by its coordinates: a sum along the last axis of a rank-2 or
  rank-3 vector is, at each remaining index, the sum of the source over that axis's coordinate.
-/
import Idealize.ShloMosaic.PureOps.Ideal.Laws
import Idealize.ShloMosaic.Lib.ValueIdx

namespace Cert.Lib

open Idealize.ShloMosaic Idealize.ShloMosaic.ValueIdx

/-- A sum along the columns of an `[n, m]` vector reads, at row `r`, the sum of the row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec FTy.f32.bits) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- A sum along the last axis of an `[a, b, c]` vector reads, at `(i, j)`, the sum over the last coordinate. -/
theorem laneSum3_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec FTy.f32.bits) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => ?_
  exact congrArg src (funext fun a => Fin.ext (by match a with | ⟨0, _⟩ => rfl | ⟨1, _⟩ => rfl | ⟨2, _⟩ => rfl))

end Cert.Lib
-- ==== Proof.KernelSideRows.lean ====
/-
  Two readings of vector operations at the ideal values, over vectors of any extents.

  The rows of an [n, m] vector "made unit": each row is divided by its Euclidean length — the square root of the sum
  of the squares of its entries — clipped from below at a float constant, and the quotient is narrowed to bf16, which
  changes nothing on the extended reals.  Entry (r, k) of the result is the operand's entry over the clipped length
  of row r.

  A sum along the rows of an [n, m] vector is, at column c, the sum of the column.
-/
import Idealize.ShloMosaic.PureOps.Ideal.Laws
import Idealize.ShloMosaic.Lib.Pipeline.Value
import Idealize.ShloMosaic.Lib.ValueIdx
import Idealize.ShloMosaic.Lib.ValueLayout
import proofs.«157308_j65850438582860_1_alg».proof.Proof.LibLayout
import proofs.«157308_j65850438582860_1_alg».proof.Proof.LibSums

noncomputable section

open scoped BigOperators

namespace Cert.KernelSide

open Idealize.ShloMosaic Idealize.ShloMosaic.ValueIdx

/-- A sum along the rows of an `[n, m]` vector reads, at column `c`, the sum of the column. -/
theorem colSum_apply {n m : ℕ} (src : FVec Ideal ⟨2, ![n, m]⟩ .f32) (h : (⟨2, ![n, m]⟩ : Shape).Reduces [0] ⟨1, ![m]⟩)
    (hφ : FKind.Formats .f32) (hacc : (0x00000000#32 : BitVec FTy.f32.bits) = FKind.add.neutral .f32 hφ) (c : Fin m) :
    multiReduction .add [0] ⟨1, ![m]⟩ src 0x00000000#32 h hφ hacc (ix1 c) = ∑ r : Fin n, src (ix2 r c) := by
  refine (Ideal.multiReduction_add_single src 0x00000000#32 h hφ hacc (ix1 c)).trans ?_
  refine Finset.sum_congr rfl fun r _ => ?_
  exact congrArg src (funext fun a => Fin.ext (by match a with | ⟨0, _⟩ => rfl | ⟨1, _⟩ => rfl))

/-- The clipped length of row `r` of an `[n, m]` vector, as the operations compute it: the column `[n, 1]` of the
    square roots of the rows' sums of squares, raised to at least the float `c`. -/
theorem clippedLen_apply {n m : ℕ} (v : FVec Ideal ⟨2, ![n, m]⟩ .f32)
    (hred : (⟨2, ![n, m]⟩ : Shape).Reduces [1] ⟨1, ![n]⟩) (hφ : FKind.Formats .f32)
    (hacc : (0x00000000#32 : BitVec FTy.f32.bits) = FKind.add.neutral .f32 hφ)
    (hcast : (⟨1, ![n]⟩ : Shape).ShapeCasts ⟨2, ![n, 1]⟩) (c : BitVec 32) (r : Fin n) (u : Fin 1) :
    maximumf (sqrt (shapeCast ⟨2, ![n, 1]⟩ (multiReduction .add [1] ⟨1, ![n]⟩ (mulf v v) 0x00000000#32 hred hφ hacc) hcast))
        (broadcast ⟨2, ![n, 1]⟩ (Scalar.ofBits (F := Ideal) .f32 c)) (ix2 r u)
      = max (Ideal.sqrt (∑ k : Fin m, v (ix2 r k) * v (ix2 r k))) (Ideal.ofBits .f32 c) := by
  rw [maximumf_apply]
  refine congrArg₂ max ?_ rfl
  show Ideal.sqrt (shapeCast ⟨2, ![n, 1]⟩ (multiReduction .add [1] ⟨1, ![n]⟩ (mulf v v) 0x00000000#32 hred hφ hacc) hcast (ix2 r u)) = _
  refine congrArg Ideal.sqrt ?_
  refine (Cert.Lib.shapeCast_a_a1_apply _ hcast r u).trans ?_
  exact Cert.Lib.rowSum_apply (mulf v v) hred hφ hacc r

/-- Entry (r, k) of the unit rows of an `[n, m]` vector: the operand's entry over the clipped length of its row. -/
theorem unitRows_apply {n m : ℕ} (v : FVec Ideal ⟨2, ![n, m]⟩ .f32)
    (hred : (⟨2, ![n, m]⟩ : Shape).Reduces [1] ⟨1, ![n]⟩) (hφ : FKind.Formats .f32)
    (hacc : (0x00000000#32 : BitVec FTy.f32.bits) = FKind.add.neutral .f32 hφ)
    (hcast : (⟨1, ![n]⟩ : Shape).ShapeCasts ⟨2, ![n, 1]⟩) (hb : (⟨2, ![n, 1]⟩ : Shape).Broadcasts ⟨2, ![n, m]⟩)
    (hlt : FTy.bits .bf16 < FTy.bits .f32) (c : BitVec 32) (r : Fin n) (k : Fin m) :
    (truncf .bf16 (divf v (broadcastTo ⟨2, ![n, m]⟩
        (maximumf (sqrt (shapeCast ⟨2, ![n, 1]⟩ (multiReduction .add [1] ⟨1, ![n]⟩ (mulf v v) 0x00000000#32 hred hφ hacc) hcast))
          (broadcast ⟨2, ![n, 1]⟩ (Scalar.ofBits (F := Ideal) .f32 c))) hb)) hlt : FVec Ideal ⟨2, ![n, m]⟩ .bf16) (ix2 r k)
      = Ideal.div (v (ix2 r k)) (max (Ideal.sqrt (∑ k' : Fin m, v (ix2 r k') * v (ix2 r k'))) (Ideal.ofBits .f32 c)) := by
  rw [truncf_apply, divf_apply]
  refine congrArg (Ideal.div (v (ix2 r k))) ?_
  refine (Cert.Lib.broadcastTo_a1_ab_apply _ hb r k).trans ?_
  exact clippedLen_apply v hred hφ hacc hcast c r 0

end Cert.KernelSide

end
-- ==== Proof.LibRowsDot.lean ====
/-
  A rows-by-rows matrix product `[M,K] · [N,K]ᵀ` read at an entry, at the ideal values: entry (i, j) of a kernel's
  product accumulated into a zero splat is the sum over the contracted coordinate k of L(i,k) · R(j,k) — both operands
  are contracted on their last axis —, whatever witness of well-formedness the dimension record carries.
-/
import Idealize.ShloMosaic.Lib.ValueIdx
import Idealize.ShloMosaic.PureOps.Ideal.Laws

noncomputable section

open scoped BigOperators

namespace Cert.LibRowsDot

open Idealize.ShloMosaic Idealize.ShloMosaic.ValueIdx

variable {M K N : Nat} {φ₁ φ₂ : FTy}

/-- The dimension record of a rows-by-rows product: both operands contracted on their axis 1, no batch axis. -/
abbrev rr (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

/-- A kernel's rows-by-rows product into a zero accumulator at entry (i, j): the inner product of row i of the left
    operand with row j of the right one. -/
theorem matmulZero_apply (wf : DotDims.WF (⟨2, ![M, K]⟩ : Shape) ⟨2, ![N, K]⟩ ⟨2, ![M, N]⟩ [1] [1] [0] [0] [] [])
    (L : FVec Ideal ⟨2, ![M, K]⟩ φ₁) (R : FVec Ideal ⟨2, ![N, K]⟩ φ₂) (i : Fin M) (j : Fin N) :
    matmul (rr wf) none L R (constant ⟨2, ![M, N]⟩ .f32 0x00000000#32) (ix2 i j) = ∑ k : Fin K, L (ix2 i k) * R (ix2 j k) := by
  simp only [matmul]
  rw [Ideal.matmul_constant_zero_apply, ← Equiv.sum_comp (contrEquiv1 (rr wf) K rfl rfl).symm]
  refine Finset.sum_congr rfl fun k _ => ?_
  have hk := contrEquiv1_symm_val (rr wf) K rfl rfl k
  have el : (rr wf).lhsIdx (ix2 i j) ((contrEquiv1 (rr wf) K rfl rfl).symm k) = ix2 i k := funext fun a => Fin.ext (by
    match a with
    | ⟨0, _⟩ => rfl
    | ⟨1, _⟩ => exact ((rr wf).lhsIdx_val_of_single rfl _ _).trans hk)
  have er : (rr wf).rhsIdx (ix2 i j) ((contrEquiv1 (rr wf) K rfl rfl).symm k) = ix2 j k := funext fun a => Fin.ext (by
    match a with
    | ⟨0, _⟩ => rfl
    | ⟨1, _⟩ => exact ((rr wf).rhsIdx_val_of_single rfl _ _).trans hk)
  rw [el, er]

end Cert.LibRowsDot

end
-- ==== Proof.KernelSideTable.lean ====
/-
  The two 256 × 1024 tables one grid point of the kernel forms, read at an entry.

  The point sees all 1024 rows of batch b of the first array as a [1, 1024, 3136] block and 256 rows of a batch as a
  [1, 256, 3136] block.  It makes the rows of both unit (each row over its clipped Euclidean length) and multiplies
  the 256 unit rows against the 1024 unit rows, contracting the 3136 entries of a row.  Entry (r, m) of the table is
  therefore the inner product of unit row r of the small block with unit row m of the large one; when the blocks are
  rows 256 j … 256 j + 255 of batch b of x and all rows of batch b of s, that is the specification's inner product of
  unit row 256 j + r of x with unit row m of s.
-/
import proofs.«157308_j65850438582860_1_alg».proof.Proof.Gen.KernelIdeal.Skeleton
import proofs.«157308_j65850438582860_1_alg».proof.Proof.Spec
import proofs.«157308_j65850438582860_1_alg».proof.Proof.KernelSideRows
import proofs.«157308_j65850438582860_1_alg».proof.Proof.LibRowsDot

noncomputable section

open scoped BigOperators

namespace Cert.KernelSide

open Idealize.ShloMosaic Idealize.ShloMosaic.ValueIdx Cert.KernelIdeal Cert.KernelIdeal.Gen Cert.Spec

variable [Cert.KernelIdeal.Facts]

/-- A block's row over its clipped length, in the block's own coordinates (the leading coordinate of a block is 0). -/
def blockUnit {n : ℕ} (v : (⟨3, ![1, n, 3136]⟩ : Shape).Idx → EReal) (r : Fin n) (k : Fin 3136) : EReal :=
  Ideal.div (v (ix3 0 r k)) (max (Ideal.sqrt (∑ k' : Fin 3136, v (ix3 0 r k') * v (ix3 0 r k'))) floorLen)

/-- The block of all rows of batch b reads row m of the array. -/
theorem rowsAll_apply (x : Arr) (b : Fin 8) (m : Fin 1024) (k : Fin 3136) : rowsAll x b (ix3 0 m k) = x (ix3 b m k) := rfl

/-- The block of part j of batch b reads row 256 j + r of the array. -/
theorem rowsPart_apply (x : Arr) (b : Fin 8) (j : Fin 4) (r : Fin 256) (k : Fin 3136) :
    rowsPart x b j (ix3 0 r k) = x (ix3 b (rowOf j r) k) := rfl

/-- The unit rows of the block of all rows are the specification's unit rows of the batch. -/
theorem blockUnit_rowsAll (x : Arr) (b : Fin 8) (m : Fin 1024) (k : Fin 3136) : blockUnit (rowsAll x b) m k = unit x b m k := rfl

/-- The unit rows of the block of part j are the specification's unit rows 256 j + r of the batch. -/
theorem blockUnit_rowsPart (x : Arr) (b : Fin 8) (j : Fin 4) (r : Fin 256) (k : Fin 3136) :
    blockUnit (rowsPart x b j) r k = unit x b (rowOf j r) k := rfl

/-- The 1024 unit rows the point forms from its large block, at entry (m, k). -/
theorem allUnit_apply (v3 : Vec Ideal S1x1024x3136 .f32) (m : Fin 1024) (k : Fin 3136) :
    k0_pay5 (F := Ideal) v3 (ix2 m k) = blockUnit v3 m k := by
  unfold k0_pay5
  refine (unitRows_apply _ _ _ _ _ _ _ _ m k).trans ?_
  have hw : ∀ (r : Fin 1024) (c : Fin 3136),
      shapeCast S1024x3136 v3 shapeCasts_S1x1024x3136_S1024x3136 (ix2 r c) = v3 (ix3 0 r c) :=
    fun r c => shapeCast_1ab_ab_apply v3 _ r c
  simp only [hw]
  rfl

/-- The table of the point at entry (r, m): unit row r of the small block against unit row m of the large block. -/
theorem table_apply (v3 : Vec Ideal S1x1024x3136 .f32) (v5 : Vec Ideal S1x256x3136 .f32) (r : Fin 256) (m : Fin 1024) :
    k0_pay6 (F := Ideal) v3 v5 (ix2 r m) = ∑ k : Fin 3136, blockUnit v5 r k * blockUnit v3 m k := by
  unfold k0_pay6
  refine (Cert.LibRowsDot.matmulZero_apply dot_S256x3136_S1024x3136_S256x1024_1_1_0_0_n_n_wf _ _ r m).trans ?_
  refine Finset.sum_congr rfl fun k _ => ?_
  refine congrArg₂ (· * ·) ?_ (allUnit_apply v3 m k)
  refine (unitRows_apply _ _ _ _ _ _ _ _ r k).trans ?_
  have hw : ∀ (a : Fin 256) (c : Fin 3136),
      shapeCast S256x3136 v5 shapeCasts_S1x256x3136_S256x3136 (ix2 a c) = v5 (ix3 0 a c) :=
    fun a c => shapeCast_1ab_ab_apply v5 _ a c
  simp only [hw]
  rfl

/-- The second table is formed by the same operations as the first. -/
theorem table'_eq (v3 : Vec Ideal S1x1024x3136 .f32) (v7 : Vec Ideal S1x256x3136 .f32) :
    k0_pay7 (F := Ideal) v3 v7 = k0_pay6 (F := Ideal) v3 v7 := rfl

/-- Entry (r, m) of the first table at the blocks of the arrays: the inner product of unit row 256 j + r of x with unit
    row m of s. -/
theorem table_spec (x s : Arr) (b : Fin 8) (j : Fin 4) (r : Fin 256) (m : Fin 1024) :
    k0_pay6 (F := Ideal) (rowsAll s b) (rowsPart x b j) (ix2 r m) = gram x s b (rowOf j r) m :=
  table_apply (rowsAll s b) (rowsPart x b j) r m

/-- Entry (r, m) of the second table likewise. -/
theorem table'_spec (x s : Arr) (b : Fin 8) (j : Fin 4) (r : Fin 256) (m : Fin 1024) :
    k0_pay7 (F := Ideal) (rowsAll s b) (rowsPart x b j) (ix2 r m) = gram x s b (rowOf j r) m :=
  (congrFun (table'_eq (rowsAll s b) (rowsPart x b j)) (ix2 r m)).trans (table_spec x s b j r m)

end Cert.KernelSide

end
-- ==== Proof.LibAxisSums.lean ====
/-
  Lane sums of a rank-3 vector along its middle or its leading axis, at the ideal values, read at an index given by
  its coordinates; and the broadcasts of a rank-3 vector with two or three unit axes, read the same way.  A sum along
  one axis is, at each remaining index, the sum of the source over that axis's coordinate; a broadcast reads the
  operand at zero on each of the operand's unit axes.
-/
import Idealize.ShloMosaic.PureOps.Ideal.Laws
import Idealize.ShloMosaic.Lib.Pipeline.Value
import Idealize.ShloMosaic.Lib.ValueIdx

namespace Cert.Lib

open Idealize.ShloMosaic Idealize.ShloMosaic.ValueIdx

/-- A sum along the middle axis of an `[a, b, c]` vector reads, at `(i, k)`, the sum over the middle coordinate. -/
theorem midSum3_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec FTy.f32.bits) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => ?_
  exact congrArg src (funext fun ax => Fin.ext (by match ax with | ⟨0, _⟩ => rfl | ⟨1, _⟩ => rfl | ⟨2, _⟩ => rfl))

/-- A sum along the leading axis of an `[a, b, c]` vector reads, at `(j, k)`, the sum over the leading coordinate. -/
theorem leadSum3_apply {a b c : ℕ} (src : FVec Ideal ⟨3, ![a, b, c]⟩ .f32)
    (h : (⟨3, ![a, b, c]⟩ : Shape).Reduces [0] ⟨2, ![b, c]⟩)
    (hφ : FKind.Formats .f32) (hacc : (0x00000000#32 : BitVec FTy.f32.bits) = FKind.add.neutral .f32 hφ) (j : Fin b) (k : Fin c) :
    multiReduction .add [0] ⟨2, ![b, c]⟩ src 0x00000000#32 h hφ hacc (ix2 j k) = ∑ i : Fin a, src (ix3 i j k) := by
  refine (Ideal.multiReduction_add_single src 0x00000000#32 h hφ hacc (ix2 j k)).trans ?_
  refine Finset.sum_congr rfl fun i _ => ?_
  exact congrArg src (funext fun ax => Fin.ext (by match ax with | ⟨0, _⟩ => rfl | ⟨1, _⟩ => rfl | ⟨2, _⟩ => rfl))

variable {α : Type}

/-- A `[1, b, 1]` array broadcast to `[a, b, c]` reads, at `(i, j, k)`, the operand at `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-- A `[1, 1, 1]` array broadcast to `[a, b, c]` reads, at every index, the operand's one element. -/
theorem broadcastTo_111_abc_apply {a b c : ℕ} (v : (⟨3, ![1, 1, 1]⟩ : Shape).Idx → α)
    (h : (⟨3, ![1, 1, 1]⟩ : Shape).Broadcasts ⟨3, ![a, b, c]⟩) (i : Fin a) (j : Fin b) (k : Fin c) :
    broadcastTo ⟨3, ![a, b, c]⟩ v h (ix3 i j k) = v (ix3 (0 : Fin 1) (0 : Fin 1) (0 : Fin 1)) := by
  refine broadcastTo_apply v h (ix3 i j k) (ix3 (0 : Fin 1) (0 : Fin 1) (0 : Fin 1)) fun ax => ?_
  match ax with
  | ⟨0, _⟩ => rfl
  | ⟨1, _⟩ => rfl
  | ⟨2, _⟩ => rfl

end Cert.Lib
-- ==== Proof.KernelSideAcc.lean ====
/-
  What one grid point of the kernel adds to its accumulators, and what it resets them to.

  From a 256 × 1024 table the point squares every entry, sums each row over its 1024 entries, sums the 256 row sums,
  and adds the one number so obtained to each of the 128 lanes of its [1, 1, 128] accumulator.  With the tables read
  at an entry as inner products of unit rows, the number added is the contribution of the 256 rows of part j to the
  energy of batch b.  At the first part of a batch the accumulators are reset to the zero vector.
-/
import proofs.«157308_j65850438582860_1_alg».proof.Proof.KernelSideTable
import proofs.«157308_j65850438582860_1_alg».proof.Proof.LibAxisSums

noncomputable section

open scoped BigOperators

namespace Cert.KernelSide

open Idealize.ShloMosaic Idealize.ShloMosaic.ValueIdx Cert.KernelIdeal Cert.KernelIdeal.Gen Cert.Spec

variable [Cert.KernelIdeal.Facts]

/-- Every lane of the accumulator receives the sum of the squares of all entries of the table. -/
theorem accumulate_apply (v : FVec Ideal S256x1024 .f32) (acc : Vec Ideal S1x1x128 .f32) (l : Fin 128) :
    k0_pay1 (F := Ideal) v acc (ix3 0 0 l)
      = acc (ix3 0 0 l) + ∑ r : Fin 256, ∑ m : Fin 1024, v (ix2 r m) * v (ix2 r m) := by
  unfold k0_pay1
  refine (congrFun (shapeCast_self _ _) _).trans ?_
  refine (addf_apply _ _ _).trans ?_
  refine congrArg (acc (ix3 0 0 l) + ·) ?_
  refine (Cert.Lib.broadcastTo_111_abc_apply _ _ 0 0 l).trans ?_
  refine (congrFun (shapeCast_self _ _) _).trans ?_
  refine (shapeCast_ab_1ab_apply _ _ 0 0 0).trans ?_
  refine (shapeCast_a_1a_apply _ _ 0 0).trans ?_
  refine (colSum_apply _ _ _ _ 0).trans ?_
  refine Finset.sum_congr rfl fun r _ => ?_
  refine (Cert.Lib.shapeCast_a_a1_apply _ _ r 0).trans ?_
  exact Cert.Lib.rowSum_apply (mulf v v) _ _ _ r

/-- The second accumulator is updated by the same operations as the first. -/
theorem accumulate'_eq (v : FVec Ideal S256x1024 .f32) (acc : Vec Ideal S1x1x128 .f32) :
    k0_pay2 (F := Ideal) v acc = k0_pay1 (F := Ideal) v acc := rfl

/-- The first accumulator after point (b, j): what it held plus the contribution of part j of s against s. -/
theorem accumulate_ss (s : Arr) (b : Fin 8) (j : Fin 4) (acc : Vec Ideal S1x1x128 .f32) (l : Fin 128) :
    k0_pay1 (F := Ideal) (k0_pay6 (rowsAll s b) (rowsPart s b j)) acc (ix3 0 0 l)
      = acc (ix3 0 0 l) + partEnergy s s b j := by
  refine (accumulate_apply _ acc l).trans ?_
  refine congrArg (acc (ix3 0 0 l) + ·) ?_
  unfold partEnergy
  refine Finset.sum_congr rfl fun r _ => Finset.sum_congr rfl fun m _ => ?_
  rw [table_spec]

/-- The second accumulator after point (b, j): what it held plus the contribution of part j of t against s. -/
theorem accumulate_ts (s t : Arr) (b : Fin 8) (j : Fin 4) (acc : Vec Ideal S1x1x128 .f32) (l : Fin 128) :
    k0_pay2 (F := Ideal) (k0_pay7 (rowsAll s b) (rowsPart t b j)) acc (ix3 0 0 l)
      = acc (ix3 0 0 l) + partEnergy t s b j := by
  refine (congrFun (accumulate'_eq _ acc) _).trans ?_
  refine (accumulate_apply _ acc l).trans ?_
  refine congrArg (acc (ix3 0 0 l) + ·) ?_
  unfold partEnergy
  refine Finset.sum_congr rfl fun r _ => Finset.sum_congr rfl fun m _ => ?_
  rw [table'_spec]

/-- The vector the first accumulator is reset to is zero at every index. -/
theorem reset_apply (i : S1x1x128.Idx) : k0_pay3 (F := Ideal) i = 0 := by
  unfold k0_pay3
  refine (congrFun (shapeCast_self _ _) _).trans ?_
  exact Ideal.ofBits_zero_f32

/-- The vector the second accumulator is reset to is zero at every index. -/
theorem reset'_apply (i : S1x1x128.Idx) : k0_pay4 (F := Ideal) i = 0 := by
  unfold k0_pay4
  refine (congrFun (shapeCast_self _ _) _).trans ?_
  exact Ideal.ofBits_zero_f32

end Cert.KernelSide

end
-- ==== Proof.KernelSideRegroup.lean ====
/-
  The 1024 rows of a batch are four consecutive parts of 256 rows.  Summing the contributions of the four
  parts one after another, starting from zero, gives the energy of the batch; summing over the batches gives
  the energy.  Only the commutative-monoid laws of addition on the extended reals are used.
-/
import proofs.«157308_j65850438582860_1_alg».proof.Proof.Spec

noncomputable section

open scoped BigOperators

namespace Cert.KernelSide

open Cert.Spec

/-- Row n of a batch is row n % 256 of part n / 256: the pairs (part, row in the part) are the rows. -/
def rowEquiv : Fin 4 × Fin 256 ≃ Fin 1024 where
  toFun p := rowOf p.1 p.2
  invFun n := (⟨n.val / 256, by have := n.isLt; omega⟩, ⟨n.val % 256, by omega⟩)
  left_inv p := by
    obtain ⟨⟨j, hj⟩, ⟨r, hr⟩⟩ := p
    refine Prod.ext (Fin.ext ?_) (Fin.ext ?_)
    · show (256 * j + r) / 256 = j
      omega
    · show (256 * j + r) % 256 = r
      omega
  right_inv n := by
    refine Fin.ext ?_
    show 256 * (n.val / 256) + n.val % 256 = n.val
    omega

/-- A sum over the 1024 rows is the sum over the four parts of the sums over the 256 rows of each part. -/
theorem sum_rows (f : Fin 1024 → EReal) :
    ∑ n : Fin 1024, f n = ∑ j : Fin 4, ∑ r : Fin 256, f (rowOf j r) := by
  rw [← Equiv.sum_comp rowEquiv f, Fintype.sum_prod_type]
  rfl

/-- The energy of one batch is the four parts' contributions added one after another to zero. -/
theorem batch_parts (x y : Arr) (b : Fin 8) :
    ((((0 + partEnergy x y b 0) + partEnergy x y b 1) + partEnergy x y b 2) + partEnergy x y b 3)
      = ∑ n : Fin 1024, ∑ m : Fin 1024, gram x y b n m * gram x y b n m := by
  rw [sum_rows, Fin.sum_univ_four, zero_add]
  rfl

/-- The regrouping law: the batches' accumulated parts add up to the energy. -/
theorem energy_parts (x y : Arr) :
    ∑ b : Fin 8, ((((0 + partEnergy x y b 0) + partEnergy x y b 1) + partEnergy x y b 2)
      + partEnergy x y b 3) = energy x y := by
  unfold energy
  exact Finset.sum_congr rfl fun b _ => batch_parts x y b

end Cert.KernelSide

end
-- ==== Proof.KValue.lean ====
import proofs.«157308_j65850438582860_1_alg».proof.Proof.KLaunch
import proofs.«157308_j65850438582860_1_alg».proof.Proof.KernelSideAcc
import proofs.«157308_j65850438582860_1_alg».proof.Proof.KernelSideRegroup
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Spec

/-! ## The idealized kernel's result is the specification

At the extended reals.  Point t of the grid is batch t / 4, row part t % 4.  The blocks the body sees are the
specification's row pieces; the first accumulator after point t holds the energy of parts 0 … t % 4 of batch t / 4
(induction on t); at part 3 that is the whole batch's, which is what the output block of the batch receives; the
host lines then add the eight batches and divide. -/

variable (m : (ℓ : Loc nD τ sig) → Buf (Elt Ideal) ℓ)

/-- The two argument arrays of core c. -/
abbrev sArr (c : Dev nD) : Arr := m ((c : Thread nD τ).loc main_arg0)
abbrev tArr (c : Dev nD) : Arr := m ((c : Thread nD τ).loc main_arg1)

theorem N32 : cfg0.N = 32 := N_0

/-- The batch and the row part of a point. -/
def bOf (t : Fin cfg0.N) : Fin 8 := ⟨t.val / 4, by have h := lt_of_lt_of_eq t.isLt N32; omega⟩
def jOf (t : Fin cfg0.N) : Fin 4 := ⟨t.val % 4, Nat.mod_lt _ (by decide)⟩

/-- The printed index maps, decided over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- The first window's block at point t is all rows of batch t / 4 of the first argument. -/
theorem iblk0_eq (c : Dev nD) (t : Fin cfg0.N) : iblk m c 0 t = rowsAll (sArr m c) (bOf t) := by
  funext y
  obtain ⟨e0, e1, e2, -⟩ := idx_facts t
  unfold rowsAll
  show V m c main_arg0 (((cfg0.win 0).blk t).view.emb y) = _
  refine congrArg _ (funext fun a => Fin.ext ?_)
  match a with
  | ⟨0, _⟩ => show win0_0.index t (0 : Fin 3) * 1 + 1 * (y 0).val = t.val / 4; have hy : (y 0).val < 1 := (y 0).isLt; omega
  | ⟨1, _⟩ => show win0_0.index t (1 : Fin 3) * 1024 + 1 * (y 1).val = (y 1).val; omega
  | ⟨2, _⟩ => show win0_0.index t (2 : Fin 3) * 3136 + 1 * (y 2).val = (y 2).val; omega

/-- The second window's block is part t % 4 of the rows of batch t / 4 of the first argument. -/
theorem iblk1_eq (c : Dev nD) (t : Fin cfg0.N) : iblk m c 1 t = rowsPart (sArr m c) (bOf t) (jOf t) := by
  funext y
  obtain ⟨-, -, -, e0, e1, e2, -⟩ := idx_facts t
  unfold rowsPart
  show V m c main_arg0 (((cfg0.win 1).blk t).view.emb y) = _
  refine congrArg _ (funext fun a => Fin.ext ?_)
  match a with
  | ⟨0, _⟩ => show win0_1.index t (0 : Fin 3) * 1 + 1 * (y 0).val = t.val / 4; have hy : (y 0).val < 1 := (y 0).isLt; omega
  | ⟨1, _⟩ => show win0_1.index t (1 : Fin 3) * 256 + 1 * (y 1).val = 256 * (t.val % 4) + (y 1).val; omega
  | ⟨2, _⟩ => show win0_1.index t (2 : Fin 3) * 3136 + 1 * (y 2).val = (y 2).val; omega

/-- The third window's block is the same part of the second argument. -/
theorem iblk2_eq (c : Dev nD) (t : Fin cfg0.N) : iblk m c 2 t = rowsPart (tArr m c) (bOf t) (jOf t) := by
  funext y
  obtain ⟨-, -, -, -, -, -, e0, e1, e2, -⟩ := idx_facts t
  unfold rowsPart
  show V m c main_arg1 (((cfg0.win 2).blk t).view.emb y) = _
  refine congrArg _ (funext fun a => Fin.ext ?_)
  match a with
  | ⟨0, _⟩ => show win0_2.index t (0 : Fin 3) * 1 + 1 * (y 0).val = t.val / 4; have hy : (y 0).val < 1 := (y 0).isLt; omega
  | ⟨1, _⟩ => show win0_2.index t (1 : Fin 3) * 256 + 1 * (y 1).val = 256 * (t.val % 4) + (y 1).val; omega
  | ⟨2, _⟩ => show win0_2.index t (2 : Fin 3) * 3136 + 1 * (y 2).val = (y 2).val; omega

/-- The energy of parts 0 … k of batch b, summed in the order the kernel adds them. -/
def partE (x y : Arr) (b : Fin 8) : ℕ → EReal
  | 0 => 0 + partEnergy x y b 0
  | k + 1 => partE x y b k + partEnergy x y b ⟨(k + 1) % 4, Nat.mod_lt _ (by decide)⟩

/-- After the body at position n the two accumulators hold, in every lane, the energy of the parts of the batch seen
    so far: of the first argument's rows against themselves, and of the second argument's against the first's. -/
theorem acc_eq (c : Dev nD) : ∀ (n : ℕ) (hn : n < cfg0.N) (l : Fin 128) (b : Fin 8) (k : ℕ), n / 4 = b.val → n % 4 = k →
    (accAt m c n hn).1 (ix3 0 0 l) = partE (sArr m c) (sArr m c) b k
    ∧ (accAt m c n hn).2 (ix3 0 0 l) = partE (tArr m c) (sArr m c) b k := by
  intro n
  induction n with
  | zero =>
    intro hn l b k hb hk
    obtain rfl : k = 0 := by omega
    have hb' : bOf ⟨0, hn⟩ = b := Fin.ext (by show 0 / 4 = b.val; omega)
    have hj' : jOf ⟨0, hn⟩ = 0 := Fin.ext (by show 0 % 4 = 0; rfl)
    refine ⟨?_, ?_⟩
    · show k0_pay1 (F := Ideal) (k0_pay6 (iblk m c 0 ⟨0, hn⟩) (iblk m c 1 ⟨0, hn⟩)) (k0_pay3 (F := Ideal)) (ix3 0 0 l) = _
      rw [iblk0_eq, iblk1_eq, hb', hj']
      refine (Cert.KernelSide.accumulate_ss (sArr m c) b 0 (k0_pay3 (F := Ideal)) l).trans ?_
      rw [Cert.KernelSide.reset_apply]; rfl
    · show k0_pay2 (F := Ideal) (k0_pay7 (iblk m c 0 ⟨0, hn⟩) (iblk m c 2 ⟨0, hn⟩)) (k0_pay4 (F := Ideal)) (ix3 0 0 l) = _
      rw [iblk0_eq, iblk2_eq, hb', hj']
      refine (Cert.KernelSide.accumulate_ts (sArr m c) (tArr m c) b 0 (k0_pay4 (F := Ideal)) l).trans ?_
      rw [Cert.KernelSide.reset'_apply]; rfl
  | succ n ih =>
    intro hn l b k hb hk
    have hN : n + 1 < 32 := lt_of_lt_of_eq hn N32
    have hb' : bOf ⟨n + 1, hn⟩ = b := Fin.ext (by show (n + 1) / 4 = b.val; omega)
    by_cases h0 : (n + 1) % 4 = 0
    · obtain rfl : k = 0 := by omega
      have hj' : jOf ⟨n + 1, hn⟩ = 0 := Fin.ext (by show (n + 1) % 4 = 0; exact h0)
      rw [accAt_reset m c ⟨n + 1, hn⟩ h0]
      refine ⟨?_, ?_⟩
      · show k0_pay1 (F := Ideal) (k0_pay6 (iblk m c 0 ⟨n + 1, hn⟩) (iblk m c 1 ⟨n + 1, hn⟩)) (k0_pay3 (F := Ideal)) (ix3 0 0 l) = _
        rw [iblk0_eq, iblk1_eq, hb', hj']
        refine (Cert.KernelSide.accumulate_ss (sArr m c) b 0 (k0_pay3 (F := Ideal)) l).trans ?_
        rw [Cert.KernelSide.reset_apply]; rfl
      · show k0_pay2 (F := Ideal) (k0_pay7 (iblk m c 0 ⟨n + 1, hn⟩) (iblk m c 2 ⟨n + 1, hn⟩)) (k0_pay4 (F := Ideal)) (ix3 0 0 l) = _
        rw [iblk0_eq, iblk2_eq, hb', hj']
        refine (Cert.KernelSide.accumulate_ts (sArr m c) (tArr m c) b 0 (k0_pay4 (F := Ideal)) l).trans ?_
        rw [Cert.KernelSide.reset'_apply]; rfl
    · obtain ⟨k', rfl⟩ : ∃ k', k = k' + 1 := ⟨k - 1, by omega⟩
      have hj' : jOf ⟨n + 1, hn⟩ = ⟨(k' + 1) % 4, Nat.mod_lt _ (by decide)⟩ := Fin.ext (by show (n + 1) % 4 = (k' + 1) % 4; omega)
      obtain ⟨ih1, ih2⟩ := ih (Nat.lt_of_succ_lt hn) l b k' (by omega) (by omega)
      rw [accAt_step m c ⟨n + 1, hn⟩ h0]
      refine ⟨?_, ?_⟩
      · show k0_pay1 (F := Ideal) (k0_pay6 (iblk m c 0 ⟨n + 1, hn⟩) (iblk m c 1 ⟨n + 1, hn⟩)) (accAt m c n _).1 (ix3 0 0 l) = _
        rw [iblk0_eq, iblk1_eq, hb', hj']
        refine (Cert.KernelSide.accumulate_ss (sArr m c) b _ _ l).trans ?_
        rw [ih1]; rfl
      · show k0_pay2 (F := Ideal) (k0_pay7 (iblk m c 0 ⟨n + 1, hn⟩) (iblk m c 2 ⟨n + 1, hn⟩)) (accAt m c n _).2 (ix3 0 0 l) = _
        rw [iblk0_eq, iblk2_eq, hb', hj']
        refine (Cert.KernelSide.accumulate_ts (sArr m c) (tArr m c) b _ _ l).trans ?_
        rw [ih2]; rfl

/-- What the two result arrays end holding: in every lane of batch b, the whole batch's energy. -/
def G3 (c : Dev nD) : S8x1x128.Idx → EReal := fun i => partE (sArr m c) (sArr m c) ⟨(i 0).val, (i 0).isLt⟩ 3
def G4 (c : Dev nD) : S8x1x128.Idx → EReal := fun i => partE (tArr m c) (sArr m c) ⟨(i 0).val, (i 0).isLt⟩ 3

/-- What a point of the last part writes back is its block of that function. -/
theorem flushed3_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  obtain ⟨-, -, -, -, -, -, -, -, -, e0, e1, e2, -⟩ := idx_facts t
  show (cfg0.win 3).cut (grid0.coords t) ((dats m 0 c).after 3 t) = _
  rw [after3]
  funext y
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  show (accAt m c t.val t.isLt).1 (ix3 0 0 l) = G3 m c (((cfg0.win 3).blk t).view.emb (ix3 0 0 l))
  rw [((acc_eq m c t.val t.isLt l (bOf t) 3 rfl h3).1)]
  unfold G3
  refine congrArg (fun b => partE (sArr m c) (sArr m c) b 3) (Fin.ext ?_)
  show t.val / 4 = win0_3.index t (0 : Fin 3) * 1 + 1 * 0
  omega

theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  obtain ⟨-, -, -, -, -, -, -, -, -, -, -, -, e0, e1, e2⟩ := idx_facts t
  show (cfg0.win 4).cut (grid0.coords t) ((dats m 0 c).after 4 t) = _
  rw [after4]
  funext y
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  show (accAt m c t.val t.isLt).2 (ix3 0 0 l) = G4 m c (((cfg0.win 4).blk t).view.emb (ix3 0 0 l))
  rw [((acc_eq m c t.val t.isLt l (bOf t) 3 rfl h3).2)]
  unfold G4
  refine congrArg (fun b => partE (tArr m c) (sArr m c) b 3) (Fin.ext ?_)
  show t.val / 4 = win0_4.index t (0 : Fin 3) * 1 + 1 * 0
  omega

/-- An index of a result array is in point t's block iff each coordinate is in the block's range. -/
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_0).slice (win0_3.rect t)).set ↔ _
  rw [View.set_slice_whole, Rect.mem_set_unit]
  exact Iff.rfl
theorem mem_blk4 (t : Fin cfg0.N) (i : S8x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_1).slice (win0_4.rect t)).set ↔ _
  rw [View.set_slice_whole, Rect.mem_set_unit]
  exact Iff.rfl

/-- The point of the last part of batch b. -/
def lastOf (b : Fin 8) : Fin cfg0.N := ⟨4 * b.val + 3, by rw [N32]; have := b.isLt; omega⟩

/-- The first result array at lane 0 of batch b. -/
theorem final3_at (c : Dev nD) (b : Fin 8) : (dats m 0 c).arrAt 3 cfg0.N (ix3 b 0 0) = partE (sArr m c) (sArr m c) b 3 := by
  have hf : (cfg0.win 3).flush (lastOf b) = true := (flush0_3 (lastOf b)).mpr (by show (4 * b.val + 3) % 4 = 3; omega)
  refine ((dats m 0 c).arrAt_apply_of_mem 3 (G3 m c) (fun t hf => flushed3_eq m c t hf) cfg0.N (lastOf b) (ix3 b 0 0) (lastOf b).isLt hf ?_).trans rfl
  obtain ⟨-, -, -, -, -, -, -, -, -, e0, e1, e2, -⟩ := idx_facts (lastOf b)
  rw [mem_blk3]
  intro a
  match a with
  | ⟨0, _⟩ => show win0_3.index (lastOf b) (0 : Fin 3) * 1 ≤ b.val ∧ b.val < win0_3.index (lastOf b) (0 : Fin 3) * 1 + 1; rw [e0]; show (4 * b.val + 3) / 4 * 1 ≤ b.val ∧ b.val < (4 * b.val + 3) / 4 * 1 + 1; omega
  | ⟨1, _⟩ => show win0_3.index (lastOf b) (1 : Fin 3) * 1 ≤ 0 ∧ 0 < win0_3.index (lastOf b) (1 : Fin 3) * 1 + 1; omega
  | ⟨2, _⟩ => show win0_3.index (lastOf b) (2 : Fin 3) * 128 ≤ 0 ∧ 0 < win0_3.index (lastOf b) (2 : Fin 3) * 128 + 128; omega

theorem final4_at (c : Dev nD) (b : Fin 8) : (dats m 0 c).arrAt 4 cfg0.N (ix3 b 0 0) = partE (tArr m c) (sArr m c) b 3 := by
  have hf : (cfg0.win 4).flush (lastOf b) = true := (flush0_4 (lastOf b)).mpr (by show (4 * b.val + 3) % 4 = 3; omega)
  refine ((dats m 0 c).arrAt_apply_of_mem 4 (G4 m c) (fun t hf => flushed4_eq m c t hf) cfg0.N (lastOf b) (ix3 b 0 0) (lastOf b).isLt hf ?_).trans rfl
  obtain ⟨-, -, -, -, -, -, -, -, -, -, -, -, e0, e1, e2⟩ := idx_facts (lastOf b)
  rw [mem_blk4]
  intro a
  match a with
  | ⟨0, _⟩ => show win0_4.index (lastOf b) (0 : Fin 3) * 1 ≤ b.val ∧ b.val < win0_4.index (lastOf b) (0 : Fin 3) * 1 + 1; rw [e0]; show (4 * b.val + 3) / 4 * 1 ≤ b.val ∧ b.val < (4 * b.val + 3) / 4 * 1 + 1; omega
  | ⟨1, _⟩ => show win0_4.index (lastOf b) (1 : Fin 3) * 1 ≤ 0 ∧ 0 < win0_4.index (lastOf b) (1 : Fin 3) * 1 + 1; omega
  | ⟨2, _⟩ => show win0_4.index (lastOf b) (2 : Fin 3) * 128 ≤ 0 ∧ 0 < win0_4.index (lastOf b) (2 : Fin 3) * 128 + 128; omega

/-- A batch's four parts, added in the kernel's order. -/
theorem partE_three (x y : Arr) (b : Fin 8) :
    partE x y b 3 = (((0 + partEnergy x y b 0) + partEnergy x y b 1) + partEnergy x y b 2) + partEnergy x y b 3 := rfl

/-! ## The host lines after the region -/

/-- A sum over a rank-1 index set is the sum over its coordinate. -/
theorem sum_idx1 {M : Type*} [AddCommMonoid M] {n : Nat} (f : (⟨1, ![n]⟩ : Shape).Idx → M) : ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]; rfl

/-- Lane 0 of every batch of a result array, as a vector of 8: the slice [0:8, 0:1, 0:1] reshaped to [8]. -/
theorem lane0 (o : S8x1x128.Idx → EReal) (b : Fin 8) :
    shapeCast S8 (extractStridedSlice S8x1x1 ![0, 0, 0] o slices_S8x1x128_S8x1x1_0_0_0) shapeCasts_S8x1x1_S8 (ix1 b) = o (ix3 b 0 0) := by
  refine (shapeCast_apply _ shapeCasts_S8x1x1_S8 (ix1 b) (ix3 b (0 : Fin 1) (0 : Fin 1)) ?_).trans
    (extractStridedSlice_apply _ o slices_S8x1x128_S8x1x1_0_0_0 (ix3 b (0 : Fin 1) (0 : Fin 1)) (ix3 b (0 : Fin 1) (0 : Fin 128)) ?_)
  · rw [Shape.rowMajor_val_three, Shape.rowMajor_val_one]
    show (b.val * 1 + 0) * 1 + 0 = b.val
    omega
  · intro a
    match a with
    | ⟨0, _⟩ => show b.val = 0 + b.val; omega
    | ⟨1, _⟩ => show 0 = 0 + 0; rfl
    | ⟨2, _⟩ => show 0 = 0 + 0; rfl

/-- The host's sum of a vector of 8 from the zero word. -/
theorem sum8 (y : S8.Idx → EReal) (i : S_.Idx) :
    Host.reduceAdd (F := Ideal) y (constant (F := Ideal) S_ .f32 0x00000000#32) reducesTo_S8_S_d0 h_S_ i = ∑ b : Fin 8, y (ix1 b) := by
  simp only [Host.reduceAdd, Ideal.hostReduceAdd_def]
  rw [Ideal.hostReduceAdd_total reducesTo_S8_S_d0 (fun b => b.elim0) y _ i, sum_idx1, constant_apply, Ideal.ofBits_zero_f32, zero_add]

/-- The host's quotient of two scalars, at the one index. -/
theorem hdiv_apply (x y : FVec Ideal S_ .f32) (i : S_.Idx) : Host.divf (F := Ideal) x y i = Ideal.div (x i) (y i) := rfl

/-- The host lines' result: the mean of the first result array's lane 0 minus twice the mean of the second's. -/
theorem tail_eq (c : Dev nD) :
    StableHlo.after hostOps1 (W1 m c) (Proc.devRef .tc main_v10) = fun _ => loss (sArr m c) (tArr m c) := by
  after_results
  funext i
  rw [subf_apply, hdiv_apply, mulf_apply, hdiv_apply, constant_apply, constant_apply, sum8, sum8]
  have h3 : ∀ b : Fin 8, (shapeCast S8 (extractStridedSlice S8x1x1 ![0, 0, 0] (W1 m c (Proc.devRef .tc main_v0_0)) slices_S8x1x128_S8x1x1_0_0_0) shapeCasts_S8x1x1_S8 (ix1 b) : EReal)
      = partE (sArr m c) (sArr m c) b 3 := fun b => by
    rw [lane0, W1_v0_0]; exact final3_at m c b
  have h4 : ∀ b : Fin 8, (shapeCast S8 (extractStridedSlice S8x1x1 ![0, 0, 0] (W1 m c (Proc.devRef .tc main_v0_1)) slices_S8x1x128_S8x1x1_0_0_0) shapeCasts_S8x1x1_S8 (ix1 b) : EReal)
      = partE (tArr m c) (sArr m c) b 3 := fun b => by
    rw [lane0, W1_v0_1]; exact final4_at m c b
  show Ideal.div (∑ b : Fin 8, shapeCast S8 (extractStridedSlice S8x1x1 ![0, 0, 0] (W1 m c (Proc.devRef .tc main_v0_0)) slices_S8x1x128_S8x1x1_0_0_0) shapeCasts_S8x1x1_S8 (ix1 b)) (Ideal.ofBits .f32 0x4B000000#32)
      - Ideal.ofBits .f32 0x40000000#32 * Ideal.div (∑ b : Fin 8, shapeCast S8 (extractStridedSlice S8x1x1 ![0, 0, 0] (W1 m c (Proc.devRef .tc main_v0_1)) slices_S8x1x128_S8x1x1_0_0_0) shapeCasts_S8x1x1_S8 (ix1 b)) (Ideal.ofBits .f32 0x4B000000#32) = _
  simp only [h3, h4, partE_three, Cert.KernelSide.energy_parts]
  rfl

/-- THE IDEALIZED KERNEL'S RUN, READ: it terminates with its result buffer at the specification's value of the two
    argument arrays, and the arguments as launched. -/
theorem run (ρ : Dev nD → PrngReg) :
    θ_run defs (onTc (τ := τ) (main (F := Ideal))) ⟨m, fun _ => 0, ρ⟩ fun r => ∀ c : Dev nD,
      r.2.mem ((c : Thread nD τ).loc main_v10) = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c main_v10 (by decide)).trans (tail_eq m c),
      (h c main_arg0 (by decide)).trans (by after_results; exact W1_of_ne m c main_arg0 (by decide) (by decide)),
      (h c main_arg1 (by decide)).trans (by after_results; exact W1_of_ne m c main_arg1 (by decide) (by decide))⟩)
    (run_main (F := Ideal) m ρ)

end Cert.KernelIdeal.HandValue

end
-- ==== Proof.RefSideUnit.lean ====
/-
  The reference's first half, read against the specification: its row normalisation is the specification's "unit".

  For either argument x the reference squares x entry by entry, sums every row (b, r) from the initial value zero,
  takes the square root, clips it from below at the floor word, and divides every entry of the row by the result.
  Read at the index (b, r, k) this is x[b, r, k] divided by the clipped length of row (b, r).
-/
import proofs.«157308_j65850438582860_1_alg».proof.Proof.Gen.ReferenceIdeal.Read
import proofs.«157308_j65850438582860_1_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-- An argument's contents on the extended reals. -/
abbrev Arg : Type := (⟨S8x1024x3136, .f32⟩ : BufTy).Contents (Elt Ideal)

/-- The first argument's row sums of squares: zero plus the sum over k of x[b, r, k]². -/
theorem rowSum_s (x0 : Arg) (b : Fin 8) (r : Fin 1024) :
    val_main_v1 (F := Ideal) x0 (ix2 b r) = Cert.Spec.sumSq x0 b r := by
  rw [val_main_v1_apply, val_main_cst_apply]
  simp only [val_main_v0_apply, Ideal.ofBits_def, Ideal.ofBits_zero_f32, zero_add, Ideal.mulf_def]
  unfold Cert.Spec.sumSq
  refine Finset.sum_congr rfl fun k _ => ?_
  have e : idx_main_v1 (ix2 b r) k = ix3 b r k :=
    funext fun a => Fin.ext (by match a with | ⟨0, _⟩ => rfl | ⟨1, _⟩ => rfl | ⟨2, _⟩ => rfl)
  rw [e]

/-- The first argument's clipped row length: the larger of the square root of the row sum and the floor word.
    The column index of the [8, 1024, 1] array is the only one there is. -/
theorem rowLen_s (x0 : Arg) (b : Fin 8) (r : Fin 1024) (z : Fin 1) :
    val_main_v5 (F := Ideal) x0 (ix3 b r z) = Cert.Spec.len x0 b r := by
  have e : idx_main_v2 (ix3 b r z) = ix2 b r :=
    funext fun a => Fin.ext (by match a with | ⟨0, _⟩ => rfl | ⟨1, _⟩ => rfl)
  rw [val_main_v5_apply, val_main_v3_apply, val_main_v2_apply, val_main_v4_apply, val_main_cst_0_apply, e, rowSum_s]
  simp only [Ideal.ofBits_def, Ideal.maximumf_def, Ideal.hostUnary_sqrt_def]
  rfl

/-- The first argument's unit rows: entry (b, r, k) over the clipped length of row (b, r). -/
theorem unit_s (x0 : Arg) (b : Fin 8) (r : Fin 1024) (k : Fin 3136) :
    val_main_v7 (F := Ideal) x0 (ix3 b r k) = Cert.Spec.unit x0 b r k := by
  have e : idx_main_v6 (ix3 b r k) = ix3 b r (⟨0, Nat.one_pos⟩ : Fin 1) :=
    funext fun a => Fin.ext (by match a with | ⟨0, _⟩ => rfl | ⟨1, _⟩ => rfl | ⟨2, _⟩ => rfl)
  rw [val_main_v7_apply, val_main_v6_apply, e, rowLen_s]
  simp only [Ideal.hostDivf_def]
  rfl

/-- The second argument's row sums of squares. -/
theorem rowSum_t (x1 : Arg) (b : Fin 8) (r : Fin 1024) :
    val_main_v9 (F := Ideal) x1 (ix2 b r) = Cert.Spec.sumSq x1 b r := by
  rw [val_main_v9_apply, val_main_cst_1_apply]
  simp only [val_main_v8_apply, Ideal.ofBits_def, Ideal.ofBits_zero_f32, zero_add, Ideal.mulf_def]
  unfold Cert.Spec.sumSq
  refine Finset.sum_congr rfl fun k _ => ?_
  have e : idx_main_v9 (ix2 b r) k = ix3 b r k :=
    funext fun a => Fin.ext (by match a with | ⟨0, _⟩ => rfl | ⟨1, _⟩ => rfl | ⟨2, _⟩ => rfl)
  rw [e]

/-- The second argument's clipped row length. -/
theorem rowLen_t (x1 : Arg) (b : Fin 8) (r : Fin 1024) (z : Fin 1) :
    val_main_v13 (F := Ideal) x1 (ix3 b r z) = Cert.Spec.len x1 b r := by
  have e : idx_main_v10 (ix3 b r z) = ix2 b r :=
    funext fun a => Fin.ext (by match a with | ⟨0, _⟩ => rfl | ⟨1, _⟩ => rfl)
  rw [val_main_v13_apply, val_main_v11_apply, val_main_v10_apply, val_main_v12_apply, val_main_cst_2_apply, e, rowSum_t]
  simp only [Ideal.ofBits_def, Ideal.maximumf_def, Ideal.hostUnary_sqrt_def]
  rfl

/-- The second argument's unit rows. -/
theorem unit_t (x1 : Arg) (b : Fin 8) (r : Fin 1024) (k : Fin 3136) :
    val_main_v15 (F := Ideal) x1 (ix3 b r k) = Cert.Spec.unit x1 b r k := by
  have e : idx_main_v14 (ix3 b r k) = ix3 b r (⟨0, Nat.one_pos⟩ : Fin 1) :=
    funext fun a => Fin.ext (by match a with | ⟨0, _⟩ => rfl | ⟨1, _⟩ => rfl | ⟨2, _⟩ => rfl)
  rw [val_main_v15_apply, val_main_v14_apply, e, rowLen_t]
  simp only [Ideal.hostDivf_def]
  rfl

end Cert.RefSide

end
-- ==== Proof.LibIdx3.lean ====
/-
  A rank-3 index set is the product of its three coordinate ranges, so a sum over all rank-3 indices is the
  triple sum over the coordinates.  This is the rank-3 companion of the library's rank-2 statement.
-/
import Idealize.ShloMosaic.Lib.ValueIdx

open scoped BigOperators

namespace Cert.LibIdx3

open Idealize.ShloMosaic Idealize.ShloMosaic.ValueIdx

/-- A rank-3 index set is the product of its three coordinate ranges: an index goes to its coordinates, a triple of
    coordinates to the index they build … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates (in any commutative additive monoid). -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx3
-- ==== Proof.RefSideGram.lean ====
/-
  The reference's second half, read against the specification: its two batched products of unit rows are the
  specification's tables of inner products, and its two sums over all entries of the squared tables are the
  specification's energies.

  The product contracts the last axis of both operands and batches over the first, so entry (b, n, m) is the sum over
  k of the left operand at (b, n, k) times the right operand at (b, m, k).  The sum over every index of a
  [8, 1024, 1024] array, from the initial value zero, is the triple sum over the coordinates.
-/
import proofs.«157308_j65850438582860_1_alg».proof.Proof.RefSideUnit
import proofs.«157308_j65850438582860_1_alg».proof.Proof.LibIdx3

noncomputable section

open scoped BigOperators

namespace Cert.RefSide

open Cert.ReferenceIdeal Cert.ReferenceIdeal.Gen Cert.ReferenceIdeal.Read Idealize.ShloMosaic Idealize.ShloMosaic.ValueIdx

/-- The table of the first argument with itself: inner products of its unit rows (b, n) and (b, m). -/
theorem gram_ss (x0 : Arg) (b : Fin 8) (n m : Fin 1024) :
    val_main_v16 (F := Ideal) x0 (ix3 b n m) = Cert.Spec.gram x0 x0 b n m := by
  rw [val_main_v16_apply]
  unfold Cert.Spec.gram
  refine Finset.sum_congr rfl fun k _ => ?_
  have el : lidx_main_v16 (ix3 b n m) k = ix3 b n k :=
    funext fun a => Fin.ext (by match a with | ⟨0, _⟩ => rfl | ⟨1, _⟩ => rfl | ⟨2, _⟩ => rfl)
  have er : ridx_main_v16 (ix3 b n m) k = ix3 b m k :=
    funext fun a => Fin.ext (by match a with | ⟨0, _⟩ => rfl | ⟨1, _⟩ => rfl | ⟨2, _⟩ => rfl)
  rw [el, er, unit_s, unit_s]

/-- The table of the second argument with the first: unit row (b, n) of the second against unit row (b, m) of the first. -/
theorem gram_ts (x0 x1 : Arg) (b : Fin 8) (n m : Fin 1024) :
    val_main_v18 (F := Ideal) x0 x1 (ix3 b n m) = Cert.Spec.gram x1 x0 b n m := by
  rw [val_main_v18_apply]
  unfold Cert.Spec.gram
  refine Finset.sum_congr rfl fun k _ => ?_
  have el : lidx_main_v18 (ix3 b n m) k = ix3 b n k :=
    funext fun a => Fin.ext (by match a with | ⟨0, _⟩ => rfl | ⟨1, _⟩ => rfl | ⟨2, _⟩ => rfl)
  have er : ridx_main_v18 (ix3 b n m) k = ix3 b m k :=
    funext fun a => Fin.ext (by match a with | ⟨0, _⟩ => rfl | ⟨1, _⟩ => rfl | ⟨2, _⟩ => rfl)
  rw [el, er, unit_t, unit_s]

/-- The sum of all squared entries of the first table is the energy of the first argument with itself. -/
theorem energy_ss (x0 : Arg) (i : S_.Idx) :
    val_main_v20 (F := Ideal) x0 i = Cert.Spec.energy x0 x0 := by
  rw [val_main_v20_apply, val_main_cst_3_apply, Cert.LibIdx3.sum_idx3]
  simp only [val_main_v17_apply, gram_ss, Ideal.ofBits_def, Ideal.ofBits_zero_f32, zero_add, Ideal.mulf_def]
  rfl

/-- The sum of all squared entries of the second table is the energy of the second argument with the first. -/
theorem energy_ts (x0 x1 : Arg) (i : S_.Idx) :
    val_main_v22 (F := Ideal) x0 x1 i = Cert.Spec.energy x1 x0 := by
  rw [val_main_v22_apply, val_main_cst_5_apply, Cert.LibIdx3.sum_idx3]
  simp only [val_main_v19_apply, gram_ts, Ideal.ofBits_def, Ideal.ofBits_zero_f32, zero_add, Ideal.mulf_def]
  rfl

end Cert.RefSide

end
-- ==== Proof.RefSide.lean ====
/-
  The reference is the specification: its result, a rank-0 array, is the constant "loss" of the two argument arrays.

  After the two energies the reference divides each by the count word, multiplies the second quotient by the word for
  two, and subtracts: exactly the specification's last line.  No float literal is evaluated; the two sides carry the
  same words.
-/
import proofs.«157308_j65850438582860_1_alg».proof.Proof.RefSideGram

noncomputable section

namespace Cert.RefSide

open Cert.ReferenceIdeal Cert.ReferenceIdeal.Gen Cert.ReferenceIdeal.Read Idealize.ShloMosaic Idealize.ShloMosaic.TcCoe Idealize.SL.Sem Idealize.ShloMosaic.ValueIdx

/-- The last stage at its one index: mean square of the first table minus twice the mean square of the second. -/
theorem loss_eq (x0 x1 : Arg) (i : S_.Idx) :
    val_main_v25 (F := Ideal) x0 x1 i = Cert.Spec.loss x0 x1 := by
  rw [val_main_v25_apply, val_main_v21_apply, val_main_v24_apply, val_main_v23_apply, energy_ss, energy_ts,
    val_main_cst_4_apply, val_main_cst_6_apply, val_main_cst_7_apply]
  simp only [Ideal.ofBits_def, Ideal.subf_def, Ideal.mulf_def, Ideal.hostDivf_def]
  rfl

/-- The reference's result buffer is the constant loss of the two argument arrays as the run finds them. -/
theorem result_eq (m : (ℓ : Loc nD τ sig) → Buf (Elt Ideal) ℓ) (c : Dev nD) :
    Cert.ReferenceIdeal.Value.res_main_v25 (F := Ideal) m c
      = fun _ => Cert.Spec.loss (m ((c.tc : Thread nD τ).loc main_arg0)) (m ((c.tc : Thread nD τ).loc main_arg1)) := by
  rw [val_main_v25_eq]
  funext i
  exact loss_eq _ _ i

end Cert.RefSide

end
-- ==== Proof.lean ====
/-
  Two programs compute, from two arrays of shape [8, 1024, 3136], the mean square of the table of inner products of
  the unit rows of the first array with themselves minus twice the mean square of the table of the second array's
  unit rows against the first's (Proof/Spec.lean states the quantity).  The kernel walks a grid of 8 batches × 4 row
  parts and keeps two running sums; the reference forms the tables whole.  On the extended reals the two results are
  one number: the kernel only regroups a finite sum, which needs commutativity and associativity of addition alone.

  Frames: the reference's is its run with the result dropped; each kernel program's is its run — the region's proof
  data, the body at every point in its three control cases, the region and the host lines after it as two segments —
  read at the two argument arrays, which no window writes and no host line writes.
-/
import proofs.«157308_j65850438582860_1_alg».proof.Defs
import proofs.«157308_j65850438582860_1_alg».proof.Proof.Gen.Kernel
import proofs.«157308_j65850438582860_1_alg».proof.Proof.Gen.KernelIdeal
import proofs.«157308_j65850438582860_1_alg».proof.Proof.Gen.ReferenceIdeal
import proofs.«157308_j65850438582860_1_alg».proof.Proof.Gen.Pre_finite_inputs
import proofs.«157308_j65850438582860_1_alg».proof.Proof.Gen.ReferenceIdeal.Read
import proofs.«157308_j65850438582860_1_alg».proof.Proof.BLaunch
import proofs.«157308_j65850438582860_1_alg».proof.Proof.KValue
import proofs.«157308_j65850438582860_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its two argument arrays as launched. -/
theorem frame_k [Cert.Kernel.Facts] [Cert.Pre_finite_inputs.Facts] : Cert.frame_Kernel := fun m ρ _ =>
  (θ_run Cert.Kernel.defs _ _).mono (fun r h c =>
    ⟨(h c Cert.Kernel.main_arg0 (by decide)).trans (by
        after_results; exact Cert.Kernel.Hand.W1_of_ne m c Cert.Kernel.main_arg0 (by decide) (by decide)),
     (h c Cert.Kernel.main_arg1 (by decide)).trans (by
        after_results; exact Cert.Kernel.Hand.W1_of_ne m c Cert.Kernel.main_arg1 (by decide) (by decide))⟩)
    (Cert.Kernel.Hand.run_main (F := Bits) m ρ)

/-- The idealized kernel runs and leaves its two argument arrays as launched. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.HandValue.run m ρ)

/-- The idealized reference runs and leaves its two argument arrays as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's value. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c _ => Cert.Spec.loss (m ((c.tc : Thread _ _).loc Cert.KernelIdeal.main_arg0)) (m ((c.tc : Thread _ _).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
